-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128 : Shape := ⟨2, ![256, 128]⟩
abbrev S4096x128 : Shape := ⟨2, ![4096, 128]⟩
abbrev S4096x32 : Shape := ⟨2, ![4096, 32]⟩
abbrev S4096 : Shape := ⟨1, ![4096]⟩
abbrev S_ : Shape := ⟨0, ![]⟩

class Facts : Prop where
  bcast_S_S256x128 : S_.BroadcastsInDim S256x128 (![] : Fin 0 → Fin S256x128.rank)
  reducesTo_S256x128_S_d0_1 : S256x128.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x128 .f32) (main_arg5 : FVec F S4096 .f32) (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  let main_v19 : FVec F S4096x128 .f32 := Host.absf main_arg4
  let main_cst_6 : FVec F S_ .f32 := constant S_ .f32 0x7F800000#32
  let main_v20 : FVec F S4096x128 .f32 := broadcastInDim S4096x128 ![] bcast_S_S4096x128 main_cst_6
  let main_v21 : IVec S4096x128 1 := cmpf .olt main_v19 main_v20
  let main_c_7 : IVec S_ 1 := constantI S_ 1 1#1
  let main_v22 : IVec S_ 1 := (fun x v => Host.reduce IntOp.andi x v reducesTo_S4096x128_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S256x128 .f32) (main_arg1 : FVec F S4096x128 .f32) (main_arg2 : FVec F S4096x32 .f32) (main_arg3 : FVec F S4096x128 .f32) (main_arg4 : FVec F S4096x128 .f32) (main_arg5 : FVec F S4096 .f32) : IVec S_ 1 :=
  let main_v0 : FVec F S256x128 .f32 := Host.absf main_arg0
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x32 .f32 := Host.absf main_arg2
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S4096x128 .f32 := Host.absf main_arg3
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_arg4 main_arg5 main_v13 main_v16
-- ==== Kernel.lean ====
abbrev S256x128 : Shape := ⟨2, ![256, 128]⟩
abbrev S4096x128 : Shape := ⟨2, ![4096, 128]⟩
abbrev S4096x32 : Shape := ⟨2, ![4096, 32]⟩
abbrev S4096 : Shape := ⟨1, ![4096]⟩
abbrev S_ : Shape := ⟨0, ![]⟩
abbrev S1x4096 : Shape := ⟨2, ![1, 4096]⟩
abbrev S256x32 : Shape := ⟨2, ![256, 32]⟩
abbrev S256x4096 : Shape := ⟨2, ![256, 4096]⟩
abbrev S256x4096x128 : Shape := ⟨3, ![256, 4096, 128]⟩
abbrev S128x128 : Shape := ⟨2, ![128, 128]⟩
abbrev S1x128 : Shape := ⟨2, ![1, 128]⟩
abbrev S128x32 : Shape := ⟨2, ![128, 32]⟩
abbrev S128x128x128 : Shape := ⟨3, ![128, 128, 128]⟩
abbrev S128x1 : Shape := ⟨2, ![128, 1]⟩
abbrev S128x1x128 : Shape := ⟨3, ![128, 1, 128]⟩
abbrev S1x128x128 : Shape := ⟨3, ![1, 128, 128]⟩
abbrev S128 : Shape := ⟨1, ![128]⟩

abbrev nBuf : Space → Nat
  | .hbm => 33
  | .vmem => 22
  | .smem => 0
  | _ => 0

abbrev bufTy : (tb : Table) → Fin (tcTables nBuf tb) → BufTy
  | .hbm, ⟨0, _⟩ => ⟨S256x128, .f32⟩
  | .hbm, ⟨1, _⟩ => ⟨S4096x128, .f32⟩
  | .hbm, ⟨2, _⟩ => ⟨S4096x32, .f32⟩
  | .hbm, ⟨3, _⟩ => ⟨S4096x128, .f32⟩
  | .hbm, ⟨4, _⟩ => ⟨S4096x128, .f32⟩
  | .hbm, ⟨5, _⟩ => ⟨S4096, .f32⟩
  | .hbm, ⟨6, _⟩ => ⟨S_, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S4096x128, .i1⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S4096x128, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S1x4096, .f32⟩
  | .hbm, ⟨30, _⟩ => ⟨S256x32, .f32⟩
  | .hbm, ⟨31, _⟩ => ⟨S256x4096, .f32⟩
  | .hbm, ⟨32, _⟩ => ⟨S256x4096x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S128x32, .f32⟩
  | .local _ .vmem, ⟨13, _⟩ => ⟨S128x32, .f32⟩
  | .local _ .vmem, ⟨14, _⟩ => ⟨S128x32, .f32⟩
  | .local _ .vmem, ⟨15, _⟩ => ⟨S128x32, .f32⟩
  | .local _ .vmem, ⟨16, _⟩ => ⟨S128x128, .f32⟩
  | .local _ .vmem, ⟨17, _⟩ => ⟨S128x128, .f32⟩
  | .local _ .vmem, ⟨18, _⟩ => ⟨S128x128x128, .f32⟩
  | .local _ .vmem, ⟨19, _⟩ => ⟨S128x128x128, .f32⟩
  | .local _ .vmem, ⟨20, _⟩ => ⟨S128x32, .f32⟩
  | .local _ .vmem, ⟨21, _⟩ => ⟨S128x1, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10_0 : Ref sig .tc := ⟨.hbm, 30, rfl⟩
abbrev main_v10_1 : Ref sig .tc := ⟨.hbm, 31, rfl⟩
abbrev main_v10_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  bcast_S_S4096x128 : S_.BroadcastsInDim S4096x128 (![] : Fin 0 → Fin S4096x128.rank)
  reducesTo_S4096x128_S4096_d1 : S4096x128.ReducesTo [1] S4096
  h_S_ : 0 < S_.numel
  shapeCasts_S4096_S1x4096 : S4096.ShapeCasts S1x4096
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  inb_S128x128x128_S128x128x128_0_0_0 : ∀ a, (![0, 0, 0] : Fin 3 → Nat) a + S128x128x128.size a ≤ S128x128x128.size a
  h_S128x128x128 : 0 < S128x128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S1x128_S128x128 : S1x128.Broadcasts S128x128
  reduces_S128x128_S128 : S128x128.Reduces [1] S128
  shapeCasts_S128_S128x1 : S128.ShapeCasts S128x1
  broadcasts_S128x1_S128x32 : S128x1.Broadcasts S128x32
  dot_S128x128_S128x128_S128x128_1_1_0_0_n_n_wf : DotDims.WF S128x128 S128x128 S128x128 [1] [1] [0] [0] [] []
  dot_S128x128_S128x32_S128x32_1_0_0_1_n_n_wf : DotDims.WF S128x128 S128x32 S128x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S256x128.size a
  hwx0_0 : ∀ i : grid0.Coords, EltTy.bits .f32 = 32 ∨ (Rect.block (s := S256x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S4096x128.size a
  hwx0_1 : ∀ i : grid0.Coords, EltTy.bits .f32 = 32 ∨ (Rect.block (s := S4096x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S4096x128.size a
  hwx0_2 : ∀ i : grid0.Coords, EltTy.bits .f32 = 32 ∨ (Rect.block (s := S4096x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S4096x128.size a
  hwx0_3 : ∀ i : grid0.Coords, EltTy.bits .f32 = 32 ∨ (Rect.block (s := S4096x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S4096x128.size a
  hwx0_4 : ∀ i : grid0.Coords, EltTy.bits .f32 = 32 ∨ (Rect.block (s := S4096x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x4096.size a
  hwx0_5 : ∀ i : grid0.Coords, EltTy.bits .f32 = 32 ∨ (Rect.block (s := S1x4096) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x32.size a ≤ S4096x32.size a
  hwx0_6 : ∀ i : grid0.Coords, EltTy.bits .f32 = 32 ∨ (Rect.block (s := S4096x32) S128x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x32.size a ≤ S256x32.size a
  hwx0_7 : ∀ i : grid0.Coords, EltTy.bits .f32 = 32 ∨ (Rect.block (s := S256x32) S128x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S256x4096.size a
  hwx0_8 : ∀ i : grid0.Coords, EltTy.bits .f32 = 32 ∨ (Rect.block (s := S256x4096) S128x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x128x128.size a ≤ S256x4096x128.size a
  hwx0_9 : ∀ i : grid0.Coords, EltTy.bits .f32 = 32 ∨ (Rect.block (s := S256x4096x128) S128x128x128.size (cc0_transform_9 i) (hinb0_9 i)).WholeWords (EltTy.packing .f32)

variable [Facts₀]

def dot_S128x128_S128x128_S128x128_1_1_0_0_n_n : DotDims S128x128 S128x128 S128x128 where
  lhsContracting := [1]
  rhsContracting := [1]
  lhsNonContracting := [0]
  rhsNonContracting := [0]
  lhsBatch := []
  rhsBatch := []
  wf := dot_S128x128_S128x128_S128x128_1_1_0_0_n_n_wf
def dot_S128x128_S128x32_S128x32_1_0_0_1_n_n : DotDims S128x128 S128x32 S128x32 where
  lhsContracting := [1]
  rhsContracting := [0]
  lhsNonContracting := [0]
  rhsNonContracting := [1]
  lhsBatch := []
  rhsBatch := []
  wf := dot_S128x128_S128x32_S128x32_1_0_0_1_n_n_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S128x32.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S128x32.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S128x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_2) S128x128x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S256x128 : Shape := ⟨2, ![256, 128]⟩
abbrev S4096x128 : Shape := ⟨2, ![4096, 128]⟩
abbrev S4096x32 : Shape := ⟨2, ![4096, 32]⟩
abbrev S4096 : Shape := ⟨1, ![4096]⟩
abbrev S_ : Shape := ⟨0, ![]⟩
abbrev S256x1x128 : Shape := ⟨3, ![256, 1, 128]⟩
abbrev S1x4096x128 : Shape := ⟨3, ![1, 4096, 128]⟩
abbrev S256x4096x128 : Shape := ⟨3, ![256, 4096, 128]⟩
abbrev S256x4096 : Shape := ⟨2, ![256, 4096]⟩
abbrev S1x4096 : Shape := ⟨2, ![1, 4096]⟩
abbrev S256 : Shape := ⟨1, ![256]⟩
abbrev S256x1 : Shape := ⟨2, ![256, 1]⟩
abbrev S256x32 : Shape := ⟨2, ![256, 32]⟩

abbrev nBuf : Space → Nat
  | .hbm => 56
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S4096x128, .f32⟩
  | .hbm, ⟨2, _⟩ => ⟨S4096x32, .f32⟩
  | .hbm, ⟨3, _⟩ => ⟨S4096x128, .f32⟩
  | .hbm, ⟨4, _⟩ => ⟨S4096x128, .f32⟩
  | .hbm, ⟨5, _⟩ => ⟨S4096, .f32⟩
  | .hbm, ⟨6, _⟩ => ⟨S_, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S4096x128, .i1⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S256x1x128, .f32⟩
  | .hbm, ⟨21, _⟩ => ⟨S1x4096x128, .f32⟩
  | .hbm, ⟨22, _⟩ => ⟨S256x4096x128, .f32⟩
  | .hbm, ⟨23, _⟩ => ⟨S256x4096x128, .f32⟩
  | .hbm, ⟨24, _⟩ => ⟨S256x4096x128, .f32⟩
  | .hbm, ⟨25, _⟩ => ⟨S256x4096x128, .f32⟩
  | .hbm, ⟨26, _⟩ => ⟨S1x4096x128, .f32⟩
  | .hbm, ⟨27, _⟩ => ⟨S256x4096x128, .f32⟩
  | .hbm, ⟨28, _⟩ => ⟨S256x4096x128, .f32⟩
  | .hbm, ⟨29, _⟩ => ⟨S4096x128, .f32⟩
  | .hbm, ⟨30, _⟩ => ⟨S4096x128, .f32⟩
  | .hbm, ⟨31, _⟩ => ⟨S1x4096x128, .f32⟩
  | .hbm, ⟨32, _⟩ => ⟨S256x4096x128, .f32⟩
  | .hbm, ⟨33, _⟩ => ⟨S256x4096x128, .f32⟩
  | .hbm, ⟨34, _⟩ => ⟨S_, .f32⟩
  | .hbm, ⟨35, _⟩ => ⟨S256x4096, .f32⟩
  | .hbm, ⟨36, _⟩ => ⟨S1x4096, .f32⟩
  | .hbm, ⟨37, _⟩ => ⟨S256x4096, .f32⟩
  | .hbm, ⟨38, _⟩ => ⟨S256x4096, .f32⟩
  | .hbm, ⟨39, _⟩ => ⟨S256x4096, .f32⟩
  | .hbm, ⟨40, _⟩ => ⟨S256x4096, .f32⟩
  | .hbm, ⟨41, _⟩ => ⟨S_, .f32⟩
  | .hbm, ⟨42, _⟩ => ⟨S256x4096, .f32⟩
  | .hbm, ⟨43, _⟩ => ⟨S256x4096, .f32⟩
  | .hbm, ⟨44, _⟩ => ⟨S_, .f32⟩
  | .hbm, ⟨45, _⟩ => ⟨S256x4096, .f32⟩
  | .hbm, ⟨46, _⟩ => ⟨S256x4096, .f32⟩
  | .hbm, ⟨47, _⟩ => ⟨S_, .f32⟩
  | .hbm, ⟨48, _⟩ => ⟨S256, .f32⟩
  | .hbm, ⟨49, _⟩ => ⟨S256x1, .f32⟩
  | .hbm, ⟨50, _⟩ => ⟨S_, .f32⟩
  | .hbm, ⟨51, _⟩ => ⟨S256x1, .f32⟩
  | .hbm, ⟨52, _⟩ => ⟨S256x1, .f32⟩
  | .hbm, ⟨53, _⟩ => ⟨S256x4096, .f32⟩
  | .hbm, ⟨54, _⟩ => ⟨S256x4096, .f32⟩
  | .hbm, ⟨55, _⟩ => ⟨S256x32, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_0 : Ref sig .tc := ⟨.hbm, 41, rfl⟩
abbrev main_v21 : Ref sig .tc := ⟨.hbm, 42, rfl⟩
abbrev main_v22 : Ref sig .tc := ⟨.hbm, 43, rfl⟩
abbrev main_cst_1 : Ref sig .tc := ⟨.hbm, 44, rfl⟩
abbrev main_v23 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩

abbrev nD : Nat := 1
abbrev τ : Topo := Topo.v7x

variable {F : FTy → Type} [FloatOps F]

class Facts₀ : Prop where
  bcast_S_S4096x128 : S_.BroadcastsInDim S4096x128 (![] : Fin 0 → Fin S4096x128.rank)
  bcast_S256x128_S256x1x128_0_2 : S256x128.BroadcastsInDim S256x1x128 (![0, 2] : Fin 2 → Fin S256x1x128.rank)
  bcast_S4096x128_S1x4096x128_1_2 : S4096x128.BroadcastsInDim S1x4096x128 (![1, 2] : Fin 2 → Fin S1x4096x128.rank)
  bcast_S256x1x128_S256x4096x128_0_1_2 : S256x1x128.BroadcastsInDim S256x4096x128 (![0, 1, 2] : Fin 3 → Fin S256x4096x128.rank)
  bcast_S1x4096x128_S256x4096x128_0_1_2 : S1x4096x128.BroadcastsInDim S256x4096x128 (![0, 1, 2] : Fin 3 → Fin S256x4096x128.rank)
  reducesTo_S256x4096x128_S256x4096_d2 : S256x4096x128.ReducesTo [2] S256x4096
  h_S_ : 0 < S_.numel
  bcast_S4096_S1x4096_1 : S4096.BroadcastsInDim S1x4096 (![1] : Fin 1 → Fin S1x4096.rank)
  bcast_S1x4096_S256x4096_0_1 : S1x4096.BroadcastsInDim S256x4096 (![0, 1] : Fin 2 → Fin S256x4096.rank)
  bcast_S_S256x4096 : S_.BroadcastsInDim S256x4096 (![] : Fin 0 → Fin S256x4096.rank)
  reducesTo_S256x4096_S256_d1 : S256x4096.ReducesTo [1] S256
  bcast_S256_S256x1_0 : S256.BroadcastsInDim S256x1 (![0] : Fin 1 → Fin S256x1.rank)
  bcast_S_S256x1 : S_.BroadcastsInDim S256x1 (![] : Fin 0 → Fin S256x1.rank)
  bcast_S256x1_S256x4096_0_1 : S256x1.BroadcastsInDim S256x4096 (![0, 1] : Fin 2 → Fin S256x4096.rank)
  dot_S256x4096_S4096x32_S256x32_1_0_0_1_n_n_wf : DotDims.WF S256x4096 S4096x32 S256x32 [1] [0] [0] [1] [] []

variable [Facts₀]

def dot_S256x4096_S4096x32_S256x32_1_0_0_1_n_n : DotDims S256x4096 S4096x32 S256x32 where
  lhsContracting := [1]
  rhsContracting := [0]
  lhsNonContracting := [0]
  rhsNonContracting := [1]
  lhsBatch := []
  rhsBatch := []
  wf := dot_S256x4096_S4096x32_S256x32_1_0_0_1_n_n_wf

class Facts : Prop extends Facts₀ where

variable [Facts]
-- ==== Proof.Spec.lean ====
/-
  The mathematics of the certificate, free of either program.

  Arrays over coordinates: queries q[b,d] (256 x 128), cases c[n,d] (4096 x 128), feature weights fw[n,d] and
  distance weights dw[n,d] (4096 x 128), a bias beta[n] (4096), targets t[n,k] (4096 x 32).  With
  s = softplus fw and w = -|dw| the three results are

    delta[b,n,d] = (q[b,d] - c[n,d])^2 * s[n,d]
    act[b,n]     = 1 / (1 + exp (-(sum_d delta[b,n,d] * w[n,d] + beta[n])))
    yhat[b,k]    = sum_n (act[b,n] / (sum_n' act[b,n'] + eps)) * t[n,k]

  The second half states the same numbers the way a tiled evaluation produces them: the weighted squared
  distance expanded into  q^2 . w' - 2 q . (c w') + (c^2 . w' + beta)  with  w' = s w,  and the normalised
  aggregation as ONE quotient of two sums taken tile by tile over the 32 tiles of 128 cases.
-/
import Idealize.ShloMosaic.PureOps.Ideal
import Idealize.ShloMosaic.Lib.ValueIdx

noncomputable section

namespace Cert.CaseSpec

open Idealize.ShloMosaic

/-- The four constants the two programs share, as the extended reals their binary patterns denote. -/
abbrev zeroC : Ideal .f32 := FloatOps.ofBits .f32 0x00000000#32
abbrev oneC : Ideal .f32 := FloatOps.ofBits .f32 0x3F800000#32
abbrev twoC : Ideal .f32 := FloatOps.ofBits .f32 0x40000000#32
/-- The regulariser added to the normaliser: the binary32 number nearest one hundredth. -/
abbrev epsC : Ideal .f32 := FloatOps.ofBits .f32 0x3C23D70A#32

/-- softplus x = log (1 + e^x), in the overflow-free spelling  max x 0 + log1p (exp (-|x - 0|)),  behind a guard
    "x - 0 differs from itself" that never fires on the extended reals. -/
def softplus (x : Ideal .f32) : Ideal .f32 :=
  Scalar.select (FloatOps.cmpf .une (FloatOps.subf x zeroC) (FloatOps.subf x zeroC)) (FloatOps.addf x zeroC)
    (FloatOps.addf (FloatOps.maximumf x zeroC)
      (FloatOps.hostUnary .log1p (FloatOps.hostUnary .exp (FloatOps.hostNegf (FloatOps.hostAbsf (FloatOps.subf x zeroC))))))

/-- w = -|x|. -/
def negAbs (x : Ideal .f32) : Ideal .f32 := FloatOps.hostNegf (FloatOps.hostAbsf x)

/-- The logistic function spelled  1 / (1 + exp (-x)). -/
def sigm (x : Ideal .f32) : Ideal .f32 :=
  FloatOps.hostDivf oneC (FloatOps.addf oneC (FloatOps.hostUnary .exp (FloatOps.hostNegf x)))

section Defs

variable (q : Fin 256 → Fin 128 → EReal) (c fw dw : Fin 4096 → Fin 128 → EReal) (β : Fin 4096 → EReal)
  (t : Fin 4096 → Fin 32 → EReal)

/-- The weighted squared distance per feature. -/
def delta (b : Fin 256) (n : Fin 4096) (d : Fin 128) : EReal :=
  (q b d - c n d) * (q b d - c n d) * softplus (fw n d)

/-- The argument of the logistic gate: the distances weighted by w = -|dw|, summed over the features from zero,
    plus the bias. -/
def pre (b : Fin 256) (n : Fin 4096) : EReal :=
  (zeroC + ∑ d : Fin 128, delta q c fw b n d * negAbs (dw n d)) + β n

/-- The case activations. -/
def act (b : Fin 256) (n : Fin 4096) : EReal := sigm (pre q c fw dw β b n)

/-- The normaliser of a row of activations: their sum from zero, plus the regulariser. -/
def norm (a : Fin 256 → Fin 4096 → EReal) (b : Fin 256) : EReal := (zeroC + ∑ n : Fin 4096, a b n) + epsC

/-- The normalised aggregation of the targets. -/
def yhat (a : Fin 256 → Fin 4096 → EReal) (b : Fin 256) (k : Fin 32) : EReal :=
  ∑ n : Fin 4096, Ideal.div (a b n) (norm a b) * t n k

/-! ### The same numbers, tile by tile -/

/-- w' = s w, the two weights folded into one. -/
def wP (n : Fin 4096) (d : Fin 128) : EReal := softplus (fw n d) * negAbs (dw n d)

/-- The gate's argument expanded:  q^2 . w' - 2 (q . (c w')) + ((0 + c^2 . w') + beta). -/
def preK (b : Fin 256) (n : Fin 4096) : EReal :=
  ((∑ d : Fin 128, (q b d * q b d) * wP fw dw n d) - twoC * (∑ d : Fin 128, q b d * (c n d * wP fw dw n d)))
    + ((zeroC + ∑ d : Fin 128, (c n d * c n d) * wP fw dw n d) + β n)

/-- Case r of tile j. -/
def caseOf (j : Fin 32) (r : Fin 128) : Fin 4096 := ⟨128 * j.val + r.val, by have := j.isLt; have := r.isLt; omega⟩

/-- The aggregation as one quotient: numerator and normaliser both accumulated tile by tile from zero. -/
def yhatK (a : Fin 256 → Fin 4096 → EReal) (b : Fin 256) (k : Fin 32) : EReal :=
  Ideal.div (zeroC + ∑ j : Fin 32, ∑ r : Fin 128, a b (caseOf j r) * t (caseOf j r) k)
    ((zeroC + ∑ j : Fin 32, ∑ r : Fin 128, a b (caseOf j r)) + epsC)

end Defs

/-! ### Arrays and their coordinates -/

open ValueIdx in
/-- A matrix array read at its two coordinates. -/
def mat {A B : Nat} (x : (⟨2, ![A, B]⟩ : Shape).Idx → EReal) (a : Fin A) (b : Fin B) : EReal := x (ix2 a b)

open ValueIdx in
/-- A vector array read at its coordinate. -/
def vec {A : Nat} (x : (⟨1, ![A]⟩ : Shape).Idx → EReal) (a : Fin A) : EReal := x (ix1 a)

/-- A function of two coordinates as a matrix array. -/
def arr2 {A B : Nat} (f : Fin A → Fin B → EReal) : (⟨2, ![A, B]⟩ : Shape).Idx → EReal :=
  fun i => f ⟨(i 0).val, (i 0).isLt⟩ ⟨(i 1).val, (i 1).isLt⟩

/-- A function of three coordinates as a rank-3 array. -/
def arr3 {A B C : Nat} (f : Fin A → Fin B → Fin C → EReal) : (⟨3, ![A, B, C]⟩ : Shape).Idx → EReal :=
  fun i => f ⟨(i 0).val, (i 0).isLt⟩ ⟨(i 1).val, (i 1).isLt⟩ ⟨(i 2).val, (i 2).isLt⟩

theorem arr2_ix2 {A B : Nat} (f : Fin A → Fin B → EReal) (a : Fin A) (b : Fin B) : arr2 f (ValueIdx.ix2 a b) = f a b := rfl

theorem arr3_ix3 {A B C : Nat} (f : Fin A → Fin B → Fin C → EReal) (a : Fin A) (b : Fin B) (c : Fin C) :
    arr3 f (ValueIdx.ix3 a b c) = f a b c := rfl

/-! ### Finiteness -/

/-- Every entry of a matrix of extended reals is a real number. -/
def Real2 {A B : Nat} (x : Fin A → Fin B → EReal) : Prop := ∀ a b, ∃ r : ℝ, x a b = (r : EReal)

/-- Every entry of a vector of extended reals is a real number. -/
def Real1 {A : Nat} (x : Fin A → EReal) : Prop := ∀ a, ∃ r : ℝ, x a = (r : EReal)

section Results

variable (x0 : (⟨2, ![256, 128]⟩ : Shape).Idx → EReal) (x1 : (⟨2, ![4096, 128]⟩ : Shape).Idx → EReal)
  (x2 : (⟨2, ![4096, 32]⟩ : Shape).Idx → EReal) (x3 x4 : (⟨2, ![4096, 128]⟩ : Shape).Idx → EReal)
  (x5 : (⟨1, ![4096]⟩ : Shape).Idx → EReal)

/-- The three results as whole arrays of the six argument arrays (queries, cases, targets, feature weights,
    distance weights, bias). -/
def deltaArr : (⟨3, ![256, 4096, 128]⟩ : Shape).Idx → EReal := arr3 (delta (mat x0) (mat x1) (mat x3))

def actFn : Fin 256 → Fin 4096 → EReal := act (mat x0) (mat x1) (mat x3) (mat x4) (vec x5)

def actArr : (⟨2, ![256, 4096]⟩ : Shape).Idx → EReal := arr2 (actFn x0 x1 x3 x4 x5)

def yhatArr : (⟨2, ![256, 32]⟩ : Shape).Idx → EReal := arr2 (yhat (mat x2) (actFn x0 x1 x3 x4 x5))

end Results

end Cert.CaseSpec

end
-- ==== Proof.RefSide.lean ====
/-
  The reference program's three results are the specification's three arrays.

  Each stage of the reference is read at one index: the broadcasts move the index to the coordinates the
  operand is read at, the elementwise stages read through, the two float sums are the initial value plus the
  finite sum over the reduced coordinate, and the final contraction is the finite sum of products.
-/
import proofs.«125842_j19404662243695_2_alg».proof.Proof.Spec
import proofs.«125842_j19404662243695_2_alg».proof.Proof.Gen.ReferenceIdeal.Read

noncomputable section

namespace Cert.RefSide

open Cert.ReferenceIdeal Cert.ReferenceIdeal.Read Cert.CaseSpec Idealize.ShloMosaic Idealize.ShloMosaic.ValueIdx

/-- The outlined softplus at one coordinate pair is the specification's softplus of the entry there: the three
    broadcasts of the scalar zero read the constant 0. -/
theorem sp_apply (x3 : (⟨S4096x128, .f32⟩ : BufTy).Contents (Elt Ideal)) (n : Fin 4096) (d : Fin 128) :
    val_main_v0 (F := Ideal) x3 (ix2 n d) = softplus (x3 (ix2 n d)) := by
  simp only [val_main_v0_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply]
  rfl

/-- The weighted squared distance per feature, read at (b, n, d): the query is read at (b, d), the case and the
    softplus of the feature weight at (n, d). -/
theorem delta_apply (x0 : (⟨S256x128, .f32⟩ : BufTy).Contents (Elt Ideal)) (x1 x3 : (⟨S4096x128, .f32⟩ : BufTy).Contents (Elt Ideal))
    (b : Fin 256) (n : Fin 4096) (d : Fin 128) :
    val_main_v9 (F := Ideal) x0 x1 x3 (ix3 b n d) = delta (mat x0) (mat x1) (mat x3) b n d := by
  have e0 : idx_main_v1 (idx_main_v3 (ix3 b n d)) = ix2 b d :=
    funext fun a => Fin.ext (by match a with | ⟨0, _⟩ => rfl | ⟨1, _⟩ => rfl)
  have e1 : idx_main_v2 (idx_main_v4 (ix3 b n d)) = ix2 n d :=
    funext fun a => Fin.ext (by match a with | ⟨0, _⟩ => rfl | ⟨1, _⟩ => rfl)
  have e3 : idx_main_v7 (idx_main_v8 (ix3 b n d)) = ix2 n d :=
    funext fun a => Fin.ext (by match a with | ⟨0, _⟩ => rfl | ⟨1, _⟩ => rfl)
  rw [val_main_v9_apply, val_main_v6_apply, val_main_v5_apply, val_main_v3_apply, val_main_v1_apply,
    val_main_v4_apply, val_main_v2_apply, val_main_v8_apply, val_main_v7_apply, e0, e1, e3, sp_apply]
  rfl

theorem ref_delta (x0 : (⟨S256x128, .f32⟩ : BufTy).Contents (Elt Ideal)) (x1 x3 : (⟨S4096x128, .f32⟩ : BufTy).Contents (Elt Ideal)) :
    val_main_v9 (F := Ideal) x0 x1 x3 = deltaArr x0 x1 x3 := by
  funext i
  obtain ⟨b, n, d, rfl⟩ : ∃ (b : Fin 256) (n : Fin 4096) (d : Fin 128), i = ix3 b n d := ⟨i 0, i 1, i 2, eq_ix3 i⟩
  exact delta_apply x0 x1 x3 b n d

/-- The argument of the logistic gate at (b, n): the float sum over the features starts from the constant 0, its
    summand at d is the weighted squared distance times -|dw[n,d]|, and the bias is read at n. -/
theorem pre_apply (x0 : (⟨S256x128, .f32⟩ : BufTy).Contents (Elt Ideal)) (x1 x3 x4 : (⟨S4096x128, .f32⟩ : BufTy).Contents (Elt Ideal))
    (x5 : (⟨S4096, .f32⟩ : BufTy).Contents (Elt Ideal)) (b : Fin 256) (n : Fin 4096) :
    val_main_v18 (F := Ideal) x0 x1 x3 x4 x5 (ix2 b n) = pre (mat x0) (mat x1) (mat x3) (mat x4) (vec x5) b n := by
  have e5 : idx_main_v16 (idx_main_v17 (ix2 b n)) = ix1 n :=
    funext fun a => Fin.ext (by match a with | ⟨0, _⟩ => rfl)
  rw [val_main_v18_apply, val_main_v15_apply, val_main_v17_apply, val_main_v16_apply, e5, val_main_cst_apply]
  unfold pre
  refine congrArg (fun s : EReal => (zeroC + s) + x5 (ix1 n)) (Finset.sum_congr rfl fun d _ => ?_)
  have ei : idx_main_v15 (ix2 b n) d = ix3 b n d :=
    funext fun a => Fin.ext (by match a with | ⟨0, _⟩ => rfl | ⟨1, _⟩ => rfl | ⟨2, _⟩ => rfl)
  have e4 : idx_main_v12 (idx_main_v13 (ix3 b n d)) = ix2 n d :=
    funext fun a => Fin.ext (by match a with | ⟨0, _⟩ => rfl | ⟨1, _⟩ => rfl)
  rw [ei, val_main_v14_apply, delta_apply, val_main_v13_apply, val_main_v12_apply, e4, val_main_v11_apply,
    val_main_v10_apply]
  rfl

/-- The activation at (b, n): both broadcast ones read the constant 1, and the gate is 1 / (1 + exp (-pre)). -/
theorem act_apply (x0 : (⟨S256x128, .f32⟩ : BufTy).Contents (Elt Ideal)) (x1 x3 x4 : (⟨S4096x128, .f32⟩ : BufTy).Contents (Elt Ideal))
    (x5 : (⟨S4096, .f32⟩ : BufTy).Contents (Elt Ideal)) (b : Fin 256) (n : Fin 4096) :
    val_main_v24 (F := Ideal) x0 x1 x3 x4 x5 (ix2 b n) = actFn x0 x1 x3 x4 x5 b n := by
  rw [val_main_v24_apply, val_main_v23_apply, val_main_cst_1_apply, val_main_v22_apply, val_main_v21_apply,
    val_main_cst_0_apply, val_main_v20_apply, val_main_v19_apply, pre_apply]
  rfl

theorem ref_act (x0 : (⟨S256x128, .f32⟩ : BufTy).Contents (Elt Ideal)) (x1 x3 x4 : (⟨S4096x128, .f32⟩ : BufTy).Contents (Elt Ideal))
    (x5 : (⟨S4096, .f32⟩ : BufTy).Contents (Elt Ideal)) :
    val_main_v24 (F := Ideal) x0 x1 x3 x4 x5 = actArr x0 x1 x3 x4 x5 := by
  funext i
  obtain ⟨b, n, rfl⟩ : ∃ (b : Fin 256) (n : Fin 4096), i = ix2 b n := ⟨i 0, i 1, eq_ix2 i⟩
  exact act_apply x0 x1 x3 x4 x5 b n

/-- The normaliser broadcast back along the cases, at (b, n): the row of activations summed from the constant 0,
    plus the regulariser; it does not depend on n. -/
theorem norm_apply (x0 : (⟨S256x128, .f32⟩ : BufTy).Contents (Elt Ideal)) (x1 x3 x4 : (⟨S4096x128, .f32⟩ : BufTy).Contents (Elt Ideal))
    (x5 : (⟨S4096, .f32⟩ : BufTy).Contents (Elt Ideal)) (b : Fin 256) (n : Fin 4096) :
    val_main_v29 (F := Ideal) x0 x1 x3 x4 x5 (ix2 b n) = CaseSpec.norm (actFn x0 x1 x3 x4 x5) b := by
  have e6 : idx_main_v26 (idx_main_v29 (ix2 b n)) = ix1 b :=
    funext fun a => Fin.ext (by match a with | ⟨0, _⟩ => rfl)
  rw [val_main_v29_apply, val_main_v28_apply, val_main_v26_apply, e6, val_main_v27_apply, val_main_cst_3_apply,
    val_main_v25_apply, val_main_cst_2_apply]
  unfold CaseSpec.norm
  refine congrArg (fun s : EReal => (zeroC + s) + epsC) (Finset.sum_congr rfl fun k _ => ?_)
  have ei : idx_main_v25 (ix1 b) k = ix2 b k :=
    funext fun a => Fin.ext (by match a with | ⟨0, _⟩ => rfl | ⟨1, _⟩ => rfl)
  rw [ei]
  exact act_apply x0 x1 x3 x4 x5 b k

/-- The aggregation at (b, k): the contraction over the cases of the normalised activation at (b, n) times the
    target at (n, k). -/
theorem yhat_apply (x0 : (⟨S256x128, .f32⟩ : BufTy).Contents (Elt Ideal)) (x1 : (⟨S4096x128, .f32⟩ : BufTy).Contents (Elt Ideal))
    (x2 : (⟨S4096x32, .f32⟩ : BufTy).Contents (Elt Ideal)) (x3 x4 : (⟨S4096x128, .f32⟩ : BufTy).Contents (Elt Ideal))
    (x5 : (⟨S4096, .f32⟩ : BufTy).Contents (Elt Ideal)) (b : Fin 256) (k : Fin 32) :
    val_main_v31 (F := Ideal) x0 x1 x2 x3 x4 x5 (ix2 b k) = yhat (mat x2) (actFn x0 x1 x3 x4 x5) b k := by
  rw [val_main_v31_apply]
  unfold yhat
  refine Finset.sum_congr rfl fun n _ => ?_
  have el : lidx_main_v31 (ix2 b k) n = ix2 b n :=
    funext fun a => Fin.ext (by match a with | ⟨0, _⟩ => rfl | ⟨1, _⟩ => rfl)
  have er : ridx_main_v31 (ix2 b k) n = ix2 n k :=
    funext fun a => Fin.ext (by match a with | ⟨0, _⟩ => rfl | ⟨1, _⟩ => rfl)
  rw [el, er, val_main_v30_apply, act_apply, norm_apply]
  rfl

theorem ref_yhat (x0 : (⟨S256x128, .f32⟩ : BufTy).Contents (Elt Ideal)) (x1 : (⟨S4096x128, .f32⟩ : BufTy).Contents (Elt Ideal))
    (x2 : (⟨S4096x32, .f32⟩ : BufTy).Contents (Elt Ideal)) (x3 x4 : (⟨S4096x128, .f32⟩ : BufTy).Contents (Elt Ideal))
    (x5 : (⟨S4096, .f32⟩ : BufTy).Contents (Elt Ideal)) :
    val_main_v31 (F := Ideal) x0 x1 x2 x3 x4 x5 = yhatArr x0 x1 x2 x3 x4 x5 := by
  funext i
  obtain ⟨b, k, rfl⟩ : ∃ (b : Fin 256) (k : Fin 32), i = ix2 b k := ⟨i 0, i 1, eq_ix2 i⟩
  exact yhat_apply x0 x1 x2 x3 x4 x5 b k

end Cert.RefSide

end
-- ==== Proof.Finite.lean ====
/-
  From the precondition "every float input is finite" to "every entry of each of the six argument arrays is a
  real number".

  The precondition is the conjunction of six bits, one per array; each bit is the conjunction, over all the
  entries x of that array, of the test  |x| < +∞.  On the extended reals |x| is  max x (-x),  and the only
  values that fail the strict bound are the two infinities; so a passing entry is a real number.
-/
import proofs.«125842_j19404662243695_2_alg».proof.Proof.Spec
import proofs.«125842_j19404662243695_2_alg».proof.Defs
import proofs.«125842_j19404662243695_2_alg».proof.Proof.Gen.Pre_finite_inputs
import Idealize.ShloMosaic.Lib.ReduceAll

namespace Cert.FiniteInputs

open Cert.CaseSpec Idealize.ShloMosaic Idealize.SL.Sem

/-- An extended real whose absolute value  max x (-x)  lies strictly below +∞ is a real number: at either
    infinity the maximum is +∞ itself. -/
theorem real_of_abs_lt_top (x : EReal) (h : max x (-x) < ⊤) : ∃ r : ℝ, x = (r : EReal) := by
  induction x using EReal.rec with
  | bot => simp at h
  | coe r => exact ⟨r, rfl⟩
  | top => simp at h

/-- The binary32 pattern with all exponent bits set and a zero significand denotes +∞. -/
theorem ofBits_inf : Ideal.ofBits .f32 0x7F800000#32 = ⊤ := by simp [Ideal.ofBits, Ideal.ieee]

/-- An array of rank zero has exactly one index. -/
instance : Subsingleton Cert.Pre_finite_inputs.S_.Idx := ⟨fun a b => funext fun d => d.elim0⟩

/-- If the conjunction over all entries of the tests  |x i| < +∞  is true, every entry is a real number. -/
theorem real_of_all {s : Shape} {axes : List (Fin s.rank)} (x : FVec Ideal s .f32)
    (bc : Cert.Pre_finite_inputs.S_.BroadcastsInDim s (![] : Fin 0 → Fin s.rank))
    (h : s.ReducesTo axes Cert.Pre_finite_inputs.S_) (hu : 0 < Cert.Pre_finite_inputs.S_.numel)
    (e : Host.reduce IntOp.andi
          (cmpf .olt (Host.absf x) (broadcastInDim s ![] bc (constant (F := Ideal) Cert.Pre_finite_inputs.S_ .f32 0x7F800000#32)))
          (constantI Cert.Pre_finite_inputs.S_ 1 1#1) h hu ValueIdx.ix0 = 1#1)
    (i : s.Idx) : ∃ r : ℝ, x i = (r : EReal) := by
  -- the conjunction is true, so the test at i is
  have e1 := Host.reduce_andi_all _ _ h hu ValueIdx.ix0 e i
  -- the test at i, spelt out: the comparison  max (x i) (-(x i)) < +∞
  have e2 : Ideal.cmp .olt (max (x i) (-(x i))) (Ideal.ofBits .f32 0x7F800000#32) = 1#1 := e1
  rw [ofBits_inf] at e2
  have e3 : max (x i) (-(x i)) < ⊤ := by
    by_contra hn
    have e4 : Ideal.cmp .olt (max (x i) (-(x i))) ⊤ = 0#1 := by
      show BitVec.ofBool (decide (max (x i) (-(x i)) < ⊤)) = 0#1
      rw [decide_eq_false hn]; rfl
    rw [e4] at e2
    exact absurd e2 (by decide)
  exact real_of_abs_lt_top _ e3

/-- Under the precondition each of the six argument arrays has only real entries. -/
theorem of_pre [hP : Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    Real2 (mat (m ((c.tc : Thread Cert.KernelIdeal.nD Cert.KernelIdeal.τ).loc Cert.KernelIdeal.main_arg0)))
    ∧ Real2 (mat (m ((c.tc : Thread Cert.KernelIdeal.nD Cert.KernelIdeal.τ).loc Cert.KernelIdeal.main_arg1)))
    ∧ Real2 (mat (m ((c.tc : Thread Cert.KernelIdeal.nD Cert.KernelIdeal.τ).loc Cert.KernelIdeal.main_arg2)))
    ∧ Real2 (mat (m ((c.tc : Thread Cert.KernelIdeal.nD Cert.KernelIdeal.τ).loc Cert.KernelIdeal.main_arg3)))
    ∧ Real2 (mat (m ((c.tc : Thread Cert.KernelIdeal.nD Cert.KernelIdeal.τ).loc Cert.KernelIdeal.main_arg4)))
    ∧ Real1 (vec (m ((c.tc : Thread Cert.KernelIdeal.nD Cert.KernelIdeal.τ).loc Cert.KernelIdeal.main_arg5))) := by
  -- the precondition on this device, read at the one index of its rank-0 result
  have h0 := congrFun (h c) ValueIdx.ix0
  dsimp only [Cert.Pre_finite_inputs.fn, Cert.Pre_finite_inputs.fn_part1] at h0
  -- the six bits of the conjunction, last first
  obtain ⟨h1, e5⟩ := IntOp.andi_eq_one.1 h0
  obtain ⟨h2, e4⟩ := IntOp.andi_eq_one.1 h1
  obtain ⟨h3, e3⟩ := IntOp.andi_eq_one.1 h2
  obtain ⟨h4, e2⟩ := IntOp.andi_eq_one.1 h3
  obtain ⟨e0, e1⟩ := IntOp.andi_eq_one.1 h4
  exact ⟨fun a b => real_of_all _ _ _ _ e0 (ValueIdx.ix2 a b),
    fun a b => real_of_all _ _ _ _ e1 (ValueIdx.ix2 a b),
    fun a b => real_of_all _ _ _ _ e2 (ValueIdx.ix2 a b),
    fun a b => real_of_all _ _ _ _ e3 (ValueIdx.ix2 a b),
    fun a b => real_of_all _ _ _ _ e4 (ValueIdx.ix2 a b),
    fun a => real_of_all _ _ _ _ e5 (ValueIdx.ix1 a)⟩

end Cert.FiniteInputs
-- ==== Proof.Pieces.lean ====
/-
  What one run of the kernel's body leaves in each buffer, as the body's own arithmetic of what it loaded.

  The body stores each of its five buffers whole, once (the two accumulators twice at the first tile of a row: a
  zero fill, then the accumulated value). So what a buffer holds after the body is the value of its last store:
    the activations tile    A = act-payload (q, w', c w', kb)
    the delta tile          D = delta-payload (q, c, s)
    the numerator           N = num + A . t          (num the previous numerator, or the zero fill)
    the normaliser column   S = den + rowsum A       (den the previous column, or the zero fill)
    the output tile         N / (S + eps)
  for any float values.
-/
import proofs.«125842_j19404662243695_2_alg».proof.Proof.Gen.KernelIdeal.Frame
import Idealize.ShloMosaic.Lib.Pipeline.Value
import Idealize.ShloMosaic.Lib.Tactic

noncomputable section

open Idealize.ShloMosaic Idealize.ShloMosaic.TcCoe Idealize.ShloMosaic.Tactic Idealize.SL.Sem

namespace Cert.KernelPieces

open Cert.KernelIdeal Cert.KernelIdeal.Gen

variable {F : FTy → Type} [FloatOps F]

theorem hz2 : (![0, 0] : Fin 2 → Nat) = fun _ => 0 := funext fun a => by fin_cases a <;> rfl

theorem hz3 : (![0, 0, 0] : Fin 3 → Nat) = fun _ => 0 := funext fun a => by fin_cases a <;> rfl

/-- A load of a whole buffer after a list of stores whose LAST one stored the whole buffer reads that store's value. -/
theorem readCov_cons_unit_zero {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨⟨Rect.unit (fun _ => 0) S.size inb, w⟩, List.mem_cons_self, by
    show y ∈ (Rect.whole S).set; rw [Rect.set_whole]; exact Finset.mem_univ y⟩), View.canon_cons_unit_zero rfl,
    View.ld_unit_zero rfl]

/-! ## A tile that is not the first of its row: the accumulators carry what the tile before left -/

theorem tileB_act (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S128x32 .f32) (harg9 : arg9.IsWhole) (arg10 : Memref sig .tc .vmem S128x128 .f32) (harg10 : arg10.IsWhole) (arg11 : Memref sig .tc .vmem S128x128x128 .f32) (harg11 : arg11.IsWhole) (arg12 : Memref sig .tc .vmem S128x32 .f32) (harg12 : arg12.IsWhole) (arg13 : Memref sig .tc .vmem S128x1 .f32) (harg13 : arg13.IsWhole) (hc0 : ¬cond0_0 i) (x0 : Vec F S128x128 .f32) (x1 : Vec F S128x128 .f32) (x2 : Vec F S128x128 .f32) (x3 : Vec F S128x128 .f32) (x4 : Vec F S128x128 .f32) (x5 : Vec F S1x128 .f32) (x6 : Vec F S128x32 .f32) (xs0 : Vec F S128x32 .f32) (xs1 : Vec F S128x1 .f32) :
    out0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 = k0_pay7 x0 x3 x4 x5 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg12.read_unread, harg13.read_unread, View.ld_unit_zero (S := S128x128) hz2, View.ld_unit_zero (S := S1x128) hz2, View.ld_unit_zero (S := S128x32) hz2, View.ld_unit_zero (S := S128x1) hz2, View.readCov_unit_zero (S := S128x32) _ hz2, View.readCov_unit_zero (S := S128x1) _ hz2]

theorem tileB_delta (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S128x32 .f32) (harg9 : arg9.IsWhole) (arg10 : Memref sig .tc .vmem S128x128 .f32) (harg10 : arg10.IsWhole) (arg11 : Memref sig .tc .vmem S128x128x128 .f32) (harg11 : arg11.IsWhole) (arg12 : Memref sig .tc .vmem S128x32 .f32) (harg12 : arg12.IsWhole) (arg13 : Memref sig .tc .vmem S128x1 .f32) (harg13 : arg13.IsWhole) (hc0 : ¬cond0_0 i) (x0 : Vec F S128x128 .f32) (x1 : Vec F S128x128 .f32) (x2 : Vec F S128x128 .f32) (x3 : Vec F S128x128 .f32) (x4 : Vec F S128x128 .f32) (x5 : Vec F S1x128 .f32) (x6 : Vec F S128x32 .f32) (xs0 : Vec F S128x32 .f32) (xs1 : Vec F S128x1 .f32) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 = k0_pay6 x0 x1 x2 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg12.read_unread, harg13.read_unread, View.ld_unit_zero (S := S128x128) hz2, View.ld_unit_zero (S := S1x128) hz2, View.ld_unit_zero (S := S128x32) hz2, View.ld_unit_zero (S := S128x1) hz2, View.readCov_unit_zero (S := S128x32) _ hz2, View.readCov_unit_zero (S := S128x1) _ hz2]

theorem tileB_num (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S128x32 .f32) (harg9 : arg9.IsWhole) (arg10 : Memref sig .tc .vmem S128x128 .f32) (harg10 : arg10.IsWhole) (arg11 : Memref sig .tc .vmem S128x128x128 .f32) (harg11 : arg11.IsWhole) (arg12 : Memref sig .tc .vmem S128x32 .f32) (harg12 : arg12.IsWhole) (arg13 : Memref sig .tc .vmem S128x1 .f32) (harg13 : arg13.IsWhole) (hc0 : ¬cond0_0 i) (x0 : Vec F S128x128 .f32) (x1 : Vec F S128x128 .f32) (x2 : Vec F S128x128 .f32) (x3 : Vec F S128x128 .f32) (x4 : Vec F S128x128 .f32) (x5 : Vec F S1x128 .f32) (x6 : Vec F S128x32 .f32) (xs0 : Vec F S128x32 .f32) (xs1 : Vec F S128x1 .f32) :
    sout0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 = k0_pay1 (k0_pay7 x0 x3 x4 x5) x6 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg12.read_unread, harg13.read_unread, View.ld_unit_zero (S := S128x128) hz2, View.ld_unit_zero (S := S1x128) hz2, View.ld_unit_zero (S := S128x32) hz2, View.ld_unit_zero (S := S128x1) hz2, View.readCov_unit_zero (S := S128x32) _ hz2, View.readCov_unit_zero (S := S128x1) _ hz2]

theorem tileB_den (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S128x32 .f32) (harg9 : arg9.IsWhole) (arg10 : Memref sig .tc .vmem S128x128 .f32) (harg10 : arg10.IsWhole) (arg11 : Memref sig .tc .vmem S128x128x128 .f32) (harg11 : arg11.IsWhole) (arg12 : Memref sig .tc .vmem S128x32 .f32) (harg12 : arg12.IsWhole) (arg13 : Memref sig .tc .vmem S128x1 .f32) (harg13 : arg13.IsWhole) (hc0 : ¬cond0_0 i) (x0 : Vec F S128x128 .f32) (x1 : Vec F S128x128 .f32) (x2 : Vec F S128x128 .f32) (x3 : Vec F S128x128 .f32) (x4 : Vec F S128x128 .f32) (x5 : Vec F S1x128 .f32) (x6 : Vec F S128x32 .f32) (xs0 : Vec F S128x32 .f32) (xs1 : Vec F S128x1 .f32) :
    sout0_B_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 = k0_pay2 (k0_pay7 x0 x3 x4 x5) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg12.read_unread, harg13.read_unread, View.ld_unit_zero (S := S128x128) hz2, View.ld_unit_zero (S := S1x128) hz2, View.ld_unit_zero (S := S128x32) hz2, View.ld_unit_zero (S := S128x1) hz2, View.readCov_unit_zero (S := S128x32) _ hz2, View.readCov_unit_zero (S := S128x1) _ hz2]

theorem tileB_out (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S128x32 .f32) (harg9 : arg9.IsWhole) (arg10 : Memref sig .tc .vmem S128x128 .f32) (harg10 : arg10.IsWhole) (arg11 : Memref sig .tc .vmem S128x128x128 .f32) (harg11 : arg11.IsWhole) (arg12 : Memref sig .tc .vmem S128x32 .f32) (harg12 : arg12.IsWhole) (arg13 : Memref sig .tc .vmem S128x1 .f32) (harg13 : arg13.IsWhole) (hc0 : ¬cond0_0 i) (x0 : Vec F S128x128 .f32) (x1 : Vec F S128x128 .f32) (x2 : Vec F S128x128 .f32) (x3 : Vec F S128x128 .f32) (x4 : Vec F S128x128 .f32) (x5 : Vec F S1x128 .f32) (x6 : Vec F S128x32 .f32) (xs0 : Vec F S128x32 .f32) (xs1 : Vec F S128x1 .f32) :
    out0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 = k0_pay3 (k0_pay1 (k0_pay7 x0 x3 x4 x5) x6 xs0) (k0_pay2 (k0_pay7 x0 x3 x4 x5) xs1) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg12.read_unread, harg13.read_unread, View.ld_unit_zero (S := S128x128) hz2, View.ld_unit_zero (S := S1x128) hz2, View.ld_unit_zero (S := S128x32) hz2, View.ld_unit_zero (S := S128x1) hz2, View.readCov_unit_zero (S := S128x32) _ hz2, View.readCov_unit_zero (S := S128x1) _ hz2]

/-! ## The first tile of a row: the accumulators start from the zero fill -/

theorem tileA_act (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S128x32 .f32) (harg9 : arg9.IsWhole) (arg10 : Memref sig .tc .vmem S128x128 .f32) (harg10 : arg10.IsWhole) (arg11 : Memref sig .tc .vmem S128x128x128 .f32) (harg11 : arg11.IsWhole) (arg12 : Memref sig .tc .vmem S128x32 .f32) (harg12 : arg12.IsWhole) (arg13 : Memref sig .tc .vmem S128x1 .f32) (harg13 : arg13.IsWhole) (hc0 : cond0_0 i) (x0 : Vec F S128x128 .f32) (x1 : Vec F S128x128 .f32) (x2 : Vec F S128x128 .f32) (x3 : Vec F S128x128 .f32) (x4 : Vec F S128x128 .f32) (x5 : Vec F S1x128 .f32) (x6 : Vec F S128x32 .f32) :
    out0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 = k0_pay7 x0 x3 x4 x5 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg12.read_unread, harg13.read_unread, View.ld_unit_zero (S := S128x128) hz2, View.ld_unit_zero (S := S1x128) hz2, View.ld_unit_zero (S := S128x32) hz2, View.ld_unit_zero (S := S128x1) hz2, View.readCov_unit_zero (S := S128x32) _ hz2, View.readCov_unit_zero (S := S128x1) _ hz2, readCov_cons_unit_zero (S := S128x32) _ hz2, readCov_cons_unit_zero (S := S128x1) _ hz2]

theorem tileA_delta (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S128x32 .f32) (harg9 : arg9.IsWhole) (arg10 : Memref sig .tc .vmem S128x128 .f32) (harg10 : arg10.IsWhole) (arg11 : Memref sig .tc .vmem S128x128x128 .f32) (harg11 : arg11.IsWhole) (arg12 : Memref sig .tc .vmem S128x32 .f32) (harg12 : arg12.IsWhole) (arg13 : Memref sig .tc .vmem S128x1 .f32) (harg13 : arg13.IsWhole) (hc0 : cond0_0 i) (x0 : Vec F S128x128 .f32) (x1 : Vec F S128x128 .f32) (x2 : Vec F S128x128 .f32) (x3 : Vec F S128x128 .f32) (x4 : Vec F S128x128 .f32) (x5 : Vec F S1x128 .f32) (x6 : Vec F S128x32 .f32) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 = k0_pay6 x0 x1 x2 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg12.read_unread, harg13.read_unread, View.ld_unit_zero (S := S128x128) hz2, View.ld_unit_zero (S := S1x128) hz2, View.ld_unit_zero (S := S128x32) hz2, View.ld_unit_zero (S := S128x1) hz2, View.readCov_unit_zero (S := S128x32) _ hz2, View.readCov_unit_zero (S := S128x1) _ hz2, readCov_cons_unit_zero (S := S128x32) _ hz2, readCov_cons_unit_zero (S := S128x1) _ hz2]

theorem tileA_num (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S128x32 .f32) (harg9 : arg9.IsWhole) (arg10 : Memref sig .tc .vmem S128x128 .f32) (harg10 : arg10.IsWhole) (arg11 : Memref sig .tc .vmem S128x128x128 .f32) (harg11 : arg11.IsWhole) (arg12 : Memref sig .tc .vmem S128x32 .f32) (harg12 : arg12.IsWhole) (arg13 : Memref sig .tc .vmem S128x1 .f32) (harg13 : arg13.IsWhole) (hc0 : cond0_0 i) (x0 : Vec F S128x128 .f32) (x1 : Vec F S128x128 .f32) (x2 : Vec F S128x128 .f32) (x3 : Vec F S128x128 .f32) (x4 : Vec F S128x128 .f32) (x5 : Vec F S1x128 .f32) (x6 : Vec F S128x32 .f32) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 = k0_pay1 (k0_pay7 x0 x3 x4 x5) x6 k0_pay4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun0_A
  dsimp only
  sl_unfold_words
  rw [View.canon_cons_unit_zero (S := S128x32) hz2]
  simp only [View.readAt_eq_ld, harg2.read_unread, harg3.read_unread, harg4.read_unread, harg5.read_unread, harg6.read_unread, harg7.read_unread, harg8.read_unread, harg12.read_unread, harg13.read_unread, View.ld_unit_zero (S := S128x128) hz2, View.ld_unit_zero (S := S1x128) hz2, View.ld_unit_zero (S := S128x32) hz2, View.ld_unit_zero (S := S128x1) hz2, View.readCov_unit_zero (S := S128x32) _ hz2, View.readCov_unit_zero (S := S128x1) _ hz2, readCov_cons_unit_zero (S := S128x32) _ hz2, readCov_cons_unit_zero (S := S128x1) _ hz2]

theorem tileA_den (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S128x32 .f32) (harg9 : arg9.IsWhole) (arg10 : Memref sig .tc .vmem S128x128 .f32) (harg10 : arg10.IsWhole) (arg11 : Memref sig .tc .vmem S128x128x128 .f32) (harg11 : arg11.IsWhole) (arg12 : Memref sig .tc .vmem S128x32 .f32) (harg12 : arg12.IsWhole) (arg13 : Memref sig .tc .vmem S128x1 .f32) (harg13 : arg13.IsWhole) (hc0 : cond0_0 i) (x0 : Vec F S128x128 .f32) (x1 : Vec F S128x128 .f32) (x2 : Vec F S128x128 .f32) (x3 : Vec F S128x128 .f32) (x4 : Vec F S128x128 .f32) (x5 : Vec F S1x128 .f32) (x6 : Vec F S128x32 .f32) :
    sout0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 = k0_pay2 (k0_pay7 x0 x3 x4 x5) k0_pay5 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun0_A
  dsimp only
  sl_unfold_words
  rw [View.canon_cons_unit_zero (S := S128x1) hz2]
  simp only [View.readAt_eq_ld, harg2.read_unread, harg3.read_unread, harg4.read_unread, harg5.read_unread, harg6.read_unread, harg7.read_unread, harg8.read_unread, harg12.read_unread, harg13.read_unread, View.ld_unit_zero (S := S128x128) hz2, View.ld_unit_zero (S := S1x128) hz2, View.ld_unit_zero (S := S128x32) hz2, View.ld_unit_zero (S := S128x1) hz2, View.readCov_unit_zero (S := S128x32) _ hz2, View.readCov_unit_zero (S := S128x1) _ hz2, readCov_cons_unit_zero (S := S128x32) _ hz2, readCov_cons_unit_zero (S := S128x1) _ hz2]

theorem tileA_out (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x32 .f32) (harg8 : arg8.IsWhole) (arg9 : Memref sig .tc .vmem S128x32 .f32) (harg9 : arg9.IsWhole) (arg10 : Memref sig .tc .vmem S128x128 .f32) (harg10 : arg10.IsWhole) (arg11 : Memref sig .tc .vmem S128x128x128 .f32) (harg11 : arg11.IsWhole) (arg12 : Memref sig .tc .vmem S128x32 .f32) (harg12 : arg12.IsWhole) (arg13 : Memref sig .tc .vmem S128x1 .f32) (harg13 : arg13.IsWhole) (hc0 : cond0_0 i) (x0 : Vec F S128x128 .f32) (x1 : Vec F S128x128 .f32) (x2 : Vec F S128x128 .f32) (x3 : Vec F S128x128 .f32) (x4 : Vec F S128x128 .f32) (x5 : Vec F S1x128 .f32) (x6 : Vec F S128x32 .f32) :
    out0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 = k0_pay3 (k0_pay1 (k0_pay7 x0 x3 x4 x5) x6 k0_pay4) (k0_pay2 (k0_pay7 x0 x3 x4 x5) k0_pay5) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg12.read_unread, harg13.read_unread, View.ld_unit_zero (S := S128x128) hz2, View.ld_unit_zero (S := S1x128) hz2, View.ld_unit_zero (S := S128x32) hz2, View.ld_unit_zero (S := S128x1) hz2, View.readCov_unit_zero (S := S128x32) _ hz2, View.readCov_unit_zero (S := S128x1) _ hz2, readCov_cons_unit_zero (S := S128x32) _ hz2, readCov_cons_unit_zero (S := S128x1) _ hz2]

end Cert.KernelPieces

end
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.LibMatmulRows.lean ====
/-
  A matrix product of ROWS WITH ROWS read at an entry, over the extended reals.

  A two-dimensional contraction `[M, K] × [N, K] → [M, N]` whose dimension numbers contract the SECOND axis of both
  operands — `A · Bᵀ`, the form a linear layer takes when its weight matrix is stored one row per output unit —,
  with no batch axis, accumulated into the zero matrix, has at the entry `(p, q)` the value
  `∑ k, lhs (p, k) * rhs (q, k)`: the sum over the `K` positions of the contracted axis of the products of the left
  operand's row `p` with the right operand's row `q`, with no order or grouping left in it.
-/
import Idealize.ShloMosaic.PureOps.Ideal.Laws
import Idealize.ShloMosaic.Lib.ValueIdx

noncomputable section

open scoped BigOperators
open Idealize.ShloMosaic Idealize.ShloMosaic.ValueIdx

namespace RowsMatmul

variable {M K N : ℕ}

/-- The dimension numbers of a product of rows with rows: both second axes contracted, no batch axis. -/
structure IsRows (d : DotDims (⟨2, ![M, K]⟩ : Shape) (⟨2, ![N, K]⟩ : Shape) (⟨2, ![M, N]⟩ : Shape)) : Prop where
  lc : d.lhsContracting = [1]
  rc : d.rhsContracting = [1]
  ln : d.lhsNonContracting = [0]
  rn : d.rhsNonContracting = [0]
  lb : d.lhsBatch = []
  rb : d.rhsBatch = []

variable {d : DotDims (⟨2, ![M, K]⟩ : Shape) (⟨2, ![N, K]⟩ : Shape) (⟨2, ![M, N]⟩ : Shape)}

theorem IsRows.rank (h : IsRows d) : d.contr.rank = 1 := by rw [d.rank_contr, h.lc]; rfl

theorem IsRows.size (h : IsRows d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsRows.lhs_row (h : IsRows d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at ITS row `q`, the output entry's column. -/
theorem IsRows.rhs_row (h : IsRows d) (j : (⟨2, ![M, N]⟩ : Shape).Idx) (k : d.contr.Idx) :
    (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A product of rows with rows into the zero matrix, at the entry `(p, q)`, is the sum over the contracted axis of
    the products of the left operand's row `p` with the right operand's row `q`. -/
theorem apply {φ₁ φ₂ : FTy} (h : IsRows d) (prec : Option ContractPrecision)
    (lhs : FVec Ideal (⟨2, ![M, K]⟩ : Shape) φ₁) (rhs : FVec Ideal (⟨2, ![N, K]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 q k) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 q k := by
    funext a
    apply Fin.ext
    match a with
    | ⟨0, _⟩ => exact h.rhs_row _ _
    | ⟨1, _⟩ => exact (d.rhsIdx_val_of_single h.rc _ _).trans (contrEquiv1_symm_val d K h.rank h.size k)
  rw [hl, hr]

end RowsMatmul

end
-- ==== Proof.LibColumnLayout.lean ====
/-
  Three re-layings of a matrix's rows and columns read at an index `(p, c)`, for any extents `a`, `b`, over any element
  type (the sum over the extended reals):
  * a column `[a, 1]` repeated along `b` lanes reads, at `(p, c)`, the column's entry `(p, 0)`;
  * a vector `[a]` cast to a column `[a, 1]` reads, at `(p, 0)`, the vector's entry `p`;
  * the sum of a matrix `[a, b]` along its lanes reads, at row `p`, the sum over `c` of the entries `(p, c)`.
  Together they read a "sum over the lanes, keep the axis" at a row. They complete the library's forms for a row
  `[1, b]` repeated down `a` rows and a vector `[a]` cast to a row `[1, a]`.
-/
import Idealize.ShloMosaic.Lib.Pipeline.Value
import Idealize.ShloMosaic.Lib.ValueIdx
import Idealize.ShloMosaic.Lib.ValueLayout
import Idealize.ShloMosaic.PureOps.Ideal.Laws

noncomputable section

namespace Cert.ColumnLayout

open Idealize.ShloMosaic Idealize.ShloMosaic.ValueIdx

variable {α : Type}

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(p, u)`, the vector at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum of a matrix `[a, b]` along its second axis, started from the additive neutral word, read at row `p` over the
    extended reals: the sum over the lanes `c` of the entries `(p, c)`. -/
theorem laneSum_apply {a b : ℕ} (src : FVec Ideal ⟨2, ![a, b]⟩ .f32) (acc : BitVec FTy.f32.bits)
    (h : (⟨2, ![a, b]⟩ : Shape).Reduces [(1 : Fin 2)] ⟨1, ![a]⟩) (hφ : FKind.Formats .f32)
    (hacc : acc = FKind.add.neutral .f32 hφ) (p : Fin a) :
    multiReduction .add [(1 : Fin 2)] ⟨1, ![a]⟩ src acc h hφ hacc (ix1 p) = ∑ c : Fin b, src (ix2 p c) := by
  refine (Ideal.multiReduction_add_single src acc h hφ hacc (ix1 p)).trans ?_
  show ∑ c : Fin b, src (h.lift (ix1 p) c) = _
  refine Finset.sum_congr rfl fun c _ => congrArg src (funext fun d => Fin.ext ?_)
  match d with
  | ⟨0, _⟩ => rfl
  | ⟨1, _⟩ => rfl

end Cert.ColumnLayout

end
-- ==== Proof.Payloads.lean ====
/-
  The kernel body's arithmetic read at an index.

  Each value the body stores is one pure term of the values it loaded.  Here every such term is read at an
  index written by its coordinates, over the extended reals: the pointwise operations read entry by entry, a
  shape cast or a broadcast reads the operand at the matching coordinates, a matrix product reads as the sum
  over its contracted axis and a lane sum as the sum over the lanes.
-/
import proofs.«125842_j19404662243695_2_alg».proof.Proof.Spec
import proofs.«125842_j19404662243695_2_alg».proof.Proof.Gen.KernelIdeal.Skeleton
import proofs.«125842_j19404662243695_2_alg».proof.Proof.LibMatmul
import proofs.«125842_j19404662243695_2_alg».proof.Proof.LibMatmulRows
import proofs.«125842_j19404662243695_2_alg».proof.Proof.LibColumnLayout
import Idealize.ShloMosaic.Lib.ValueLayout
import Idealize.ShloMosaic.Lib.Pipeline.Value

noncomputable section

namespace Cert.KernelPay

open Cert.KernelIdeal Cert.KernelIdeal.Gen Cert.CaseSpec Idealize.ShloMosaic Idealize.ShloMosaic.ValueIdx
open scoped BigOperators

/-- The zero tile the numerator accumulator starts from. -/
theorem pay4_apply (p : Fin 128) (k : Fin 32) : k0_pay4 (F := Ideal) (ix2 p k) = zeroC := by
  unfold k0_pay4
  rw [shapeCast_self]
  rfl

/-- The zero column the normaliser accumulator starts from. -/
theorem pay5_apply (p : Fin 128) : k0_pay5 (F := Ideal) (ix2 p (0 : Fin 1)) = zeroC := by
  unfold k0_pay5
  rw [shapeCast_self]
  rfl

/-- The quotient tile: the numerator over the normaliser column plus the regulariser, the column repeated along
    the 32 lanes. -/
theorem pay3_apply (v53 : Vec Ideal S128x32 .f32) (v54 : Vec Ideal S128x1 .f32) (p : Fin 128) (k : Fin 32) :
    k0_pay3 (F := Ideal) v53 v54 (ix2 p k) = Ideal.div (v53 (ix2 p k)) (v54 (ix2 p (0 : Fin 1)) + epsC) := by
  unfold k0_pay3
  show Ideal.div (v53 (ix2 p k)) _ = _
  refine congrArg (Ideal.div (v53 (ix2 p k))) ?_
  refine (Cert.ColumnLayout.broadcastTo_a1_ab_apply _ _ p k).trans ?_
  rfl

/-- The numerator accumulator's update: the old tile plus the plain product of the activations with the targets,
    the sum over the 128 cases of the tile. -/
theorem pay1_apply (v35 : FVec Ideal S128x128 .f32) (v37 v38 : Vec Ideal S128x32 .f32) (p : Fin 128) (k : Fin 32) :
    k0_pay1 (F := Ideal) v35 v37 v38 (ix2 p k) = v38 (ix2 p k) + ∑ r : Fin 128, v35 (ix2 p r) * v37 (ix2 r k) := by
  unfold k0_pay1
  rw [shapeCast_self]
  show v38 (ix2 p k) + _ = _
  refine congrArg (fun z => v38 (ix2 p k) + z) ?_
  refine (PlainMatmul.apply (d := dot_S128x128_S128x32_S128x32_1_0_0_1_n_n) ⟨rfl, rfl, rfl, rfl, rfl, rfl⟩ none _ _ p k).trans ?_
  rfl

/-- The normaliser accumulator's update: the old column plus the sum of the activations along the lanes, kept
    as a column. -/
theorem pay2_apply (v35 : FVec Ideal S128x128 .f32) (v46 : Vec Ideal S128x1 .f32) (p : Fin 128) :
    k0_pay2 (F := Ideal) v35 v46 (ix2 p (0 : Fin 1)) = v46 (ix2 p (0 : Fin 1)) + ∑ r : Fin 128, v35 (ix2 p r) := by
  unfold k0_pay2
  rw [shapeCast_self]
  show v46 (ix2 p (0 : Fin 1)) + _ = _
  refine congrArg (fun z => v46 (ix2 p (0 : Fin 1)) + z) ?_
  refine (Cert.ColumnLayout.shapeCast_a_a1_apply _ _ p (0 : Fin 1)).trans ?_
  exact Cert.ColumnLayout.laneSum_apply v35 _ _ _ _ p

/-! ### Re-layings of a matrix as a rank-3 array, read at an index -/

section Layout

variable {α : Type}

/-- A matrix `[a, b]` cast to `[a, 1, b]` reads, at `(i, u, j)`, the matrix at `(i, j)`. -/
private theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An array `[a, 1, c]` repeated along a middle axis of extent `b` reads, at `(p, r, d)`, the operand at
    `(p, 0, d)`. -/
private theorem broadcastTo_a1c_abc_apply {a b c : ℕ} (v : (⟨3, ![a, 1, c]⟩ : Shape).Idx → α)
    (h : (⟨3, ![a, 1, c]⟩ : Shape).Broadcasts ⟨3, ![a, b, c]⟩) (p : Fin a) (r : Fin b) (d : Fin c) :
    broadcastTo ⟨3, ![a, b, c]⟩ v h (ix3 p r d) = v (ix3 p (0 : Fin 1) d) := by
  refine broadcastTo_apply v h (ix3 p r d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- An array `[1, b, c]` repeated along a leading axis of extent `a` reads, at `(p, r, d)`, the operand at
    `(0, r, d)`. -/
private theorem broadcastTo_1bc_abc_apply {a b c : ℕ} (v : (⟨3, ![1, b, c]⟩ : Shape).Idx → α)
    (h : (⟨3, ![1, b, c]⟩ : Shape).Broadcasts ⟨3, ![a, b, c]⟩) (p : Fin a) (r : Fin b) (d : Fin c) :
    broadcastTo ⟨3, ![a, b, c]⟩ v h (ix3 p r d) = v (ix3 (0 : Fin 1) r d) := by
  refine broadcastTo_apply v h (ix3 p r d) (ix3 (0 : Fin 1) r d) fun ax => ?_
  match ax with
  | ⟨0, _⟩ => rfl
  | ⟨1, _⟩ =>
    show r.val = if b = 1 then 0 else r.val
    split
    · have := r.isLt; omega
    · rfl
  | ⟨2, _⟩ =>
    show d.val = if c = 1 then 0 else d.val
    split
    · have := d.isLt; omega
    · rfl

end Layout

/-- The tile of weighted squared distances per feature: the queries' rows laid along the first axis, the cases'
    rows and the weights' rows along the second, the difference squared times the weight. -/
theorem pay6_apply (v3 v4 v5 : Vec Ideal S128x128 .f32) (p r d : Fin 128) :
    k0_pay6 (F := Ideal) v3 v4 v5 (ix3 p r d)
      = (v3 (ix2 p d) - v4 (ix2 r d)) * (v3 (ix2 p d) - v4 (ix2 r d)) * v5 (ix2 r d) := by
  unfold k0_pay6
  have e9 : broadcastTo S128x128x128 (shapeCast S128x1x128 v3 Facts₀.shapeCasts_S128x128_S128x1x128)
      Facts₀.broadcasts_S128x1x128_S128x128x128 (ix3 p r d) = v3 (ix2 p d) :=
    (broadcastTo_a1c_abc_apply _ _ p r d).trans (shapeCast_ab_a1b_apply _ _ p (0 : Fin 1) d)
  have e10 : ∀ x : Vec Ideal S128x128 .f32,
      broadcastTo S128x128x128 (shapeCast S1x128x128 x Facts₀.shapeCasts_S128x128_S1x128x128)
        Facts₀.broadcasts_S1x128x128_S128x128x128 (ix3 p r d) = x (ix2 r d) := fun x =>
    (broadcastTo_1bc_abc_apply _ _ p r d).trans (shapeCast_ab_1ab_apply _ _ (0 : Fin 1) r d)
  have e14 : broadcastTo S128x128x128
      (shapeCast S1x128x128 (shapeCast S128x128 v5 Facts₀.shapeCasts_S128x128_S128x128) Facts₀.shapeCasts_S128x128_S1x128x128)
        Facts₀.broadcasts_S1x128x128_S128x128x128 (ix3 p r d) = v5 (ix2 r d) :=
    (e10 _).trans (congrFun (shapeCast_self v5 _) _)
  exact congrArg₂ (fun x y : EReal => x * y)
    (congrArg₂ (fun x y : EReal => x * y) (congrArg₂ (fun x y : EReal => x - y) e9 (e10 v4))
      (congrArg₂ (fun x y : EReal => x - y) e9 (e10 v4))) e14

/-- The tile of activations: the gate's argument expanded as  q² · w' − 2 (q · (c w')) + row,  both products of rows
    with rows summed over the 128 features, the row of the third term repeated down the 128 queries, then the
    logistic function. -/
theorem pay7_apply (v3 v17 v19 : Vec Ideal S128x128 .f32) (v21 : Vec Ideal S1x128 .f32) (p r : Fin 128) :
    k0_pay7 (F := Ideal) v3 v17 v19 v21 (ix2 p r)
      = Ideal.logistic (((∑ d : Fin 128, (v3 (ix2 p d) * v3 (ix2 p d)) * v17 (ix2 r d))
          - twoC * (∑ d : Fin 128, v3 (ix2 p d) * v19 (ix2 r d))) + v21 (ix2 (0 : Fin 1) r)) := by
  unfold k0_pay7
  rw [shapeCast_self v17, shapeCast_self v19, shapeCast_self v21]
  show Ideal.logistic ((_ - twoC * _) + _) = _
  refine congrArg Ideal.logistic
    (congrArg₂ (fun x y : EReal => x + y)
      (congrArg₂ (fun x y : EReal => x - y) ?_ (congrArg (fun y : EReal => twoC * y) ?_)) ?_)
  · refine (RowsMatmul.apply (d := dot_S128x128_S128x128_S128x128_1_1_0_0_n_n) ⟨rfl, rfl, rfl, rfl, rfl, rfl⟩
      none _ _ p r).trans ?_
    rfl
  · refine (RowsMatmul.apply (d := dot_S128x128_S128x128_S128x128_1_1_0_0_n_n) ⟨rfl, rfl, rfl, rfl, rfl, rfl⟩
      none _ _ p r).trans ?_
    rfl
  · exact broadcastTo_1b_ab_apply _ _ p r

end Cert.KernelPay

end
-- ==== Proof.Blocks.lean ====
/-
  The geometry of the launch: which entries of its arrays each block is.

  The 64 grid points are numbered t = 32 * i + j with i in {0, 1} and j in {0 .. 31}.  Point t works on the tile of
  128 query rows starting at 128 * (t / 32) and on the tile of 128 cases starting at 128 * (t % 32).  Nothing here
  depends on what is computed at a point.
-/
import proofs.«125842_j19404662243695_2_alg».proof.Proof.Gen.KernelIdeal.Value
import Idealize.ShloMosaic.Lib.Pipeline.Value
import Idealize.ShloMosaic.Lib.ValueIdx

noncomputable section

namespace Cert.KernelBlocks

open Cert.KernelIdeal Cert.KernelIdeal.Gen Idealize.ShloMosaic Idealize.ShloMosaic.TcCoe Idealize.SL.Sem Idealize.ShloMosaic.ValueIdx

variable {F : FTy → Type} [FloatOps F] (m : (ℓ : Loc nD τ sig) → Buf (Elt F) ℓ)

/-- Row p of the query tile of point t. -/
def qrow (t : Fin cfg0.N) (p : Fin 128) : Fin 256 :=
  ⟨128 * (t.val / 32) + p.val, by have := t.isLt; have := p.isLt; have hN : cfg0.N = 64 := N_0; omega⟩

/-- Row r of the case tile of point t. -/
def crow (t : Fin cfg0.N) (r : Fin 128) : Fin 4096 :=
  ⟨128 * (t.val % 32) + r.val, by have := r.isLt; omega⟩

/-! ### The block index of each window at each point, decided over the 64 points -/

theorem idx0 : ∀ t : Fin cfg0.N, win0_0.index t 0 = t.val / 32 ∧ win0_0.index t 1 = 0 :=
  (by decide +kernel : ∀ t : Fin grid0.N, _)
theorem idx1 : ∀ t : Fin cfg0.N, win0_1.index t 0 = t.val % 32 ∧ win0_1.index t 1 = 0 :=
  (by decide +kernel : ∀ t : Fin grid0.N, _)
theorem idx2 : ∀ t : Fin cfg0.N, win0_2.index t 0 = t.val % 32 ∧ win0_2.index t 1 = 0 :=
  (by decide +kernel : ∀ t : Fin grid0.N, _)
theorem idx3 : ∀ t : Fin cfg0.N, win0_3.index t 0 = t.val % 32 ∧ win0_3.index t 1 = 0 :=
  (by decide +kernel : ∀ t : Fin grid0.N, _)
theorem idx4 : ∀ t : Fin cfg0.N, win0_4.index t 0 = t.val % 32 ∧ win0_4.index t 1 = 0 :=
  (by decide +kernel : ∀ t : Fin grid0.N, _)
theorem idx5 : ∀ t : Fin cfg0.N, win0_5.index t 0 = 0 ∧ win0_5.index t 1 = t.val % 32 :=
  (by decide +kernel : ∀ t : Fin grid0.N, _)
theorem idx6 : ∀ t : Fin cfg0.N, win0_6.index t 0 = t.val % 32 ∧ win0_6.index t 1 = 0 :=
  (by decide +kernel : ∀ t : Fin grid0.N, _)
theorem idx7 : ∀ t : Fin cfg0.N, win0_7.index t 0 = t.val / 32 ∧ win0_7.index t 1 = 0 :=
  (by decide +kernel : ∀ t : Fin grid0.N, _)
theorem idx8 : ∀ t : Fin cfg0.N, win0_8.index t 0 = t.val / 32 ∧ win0_8.index t 1 = t.val % 32 :=
  (by decide +kernel : ∀ t : Fin grid0.N, _)
theorem idx9 : ∀ t : Fin cfg0.N, win0_9.index t 0 = t.val / 32 ∧ win0_9.index t 1 = t.val % 32 ∧ win0_9.index t 2 = 0 :=
  (by decide +kernel : ∀ t : Fin grid0.N, _)

/-! ### The input blocks -/

theorem blk0 (c : Dev nD) (t : Fin cfg0.N) (p d : Fin 128) :
    (iblk m c 0 t : Vec F S128x128 .f32) (ix2 p d) = V m c main_arg0 (ix2 (qrow t p) d) := by
  unfold iblk
  rw [View.read_apply]
  show V m c main_arg0 _ = V m c main_arg0 _
  refine congrArg (V m c main_arg0) (funext fun a => Fin.ext ?_)
  match a with
  | ⟨0, _⟩ => show win0_0.index t 0 * 128 + 1 * p.val = 128 * (t.val / 32) + p.val; rw [(idx0 t).1]; omega
  | ⟨1, _⟩ => show win0_0.index t 1 * 128 + 1 * d.val = d.val; rw [(idx0 t).2]; omega

theorem blk1 (c : Dev nD) (t : Fin cfg0.N) (r d : Fin 128) :
    (iblk m c 1 t : Vec F S128x128 .f32) (ix2 r d) = V m c main_arg1 (ix2 (crow t r) d) := by
  unfold iblk
  rw [View.read_apply]
  show V m c main_arg1 _ = V m c main_arg1 _
  refine congrArg (V m c main_arg1) (funext fun a => Fin.ext ?_)
  match a with
  | ⟨0, _⟩ => show win0_1.index t 0 * 128 + 1 * r.val = 128 * (t.val % 32) + r.val; rw [(idx1 t).1]; omega
  | ⟨1, _⟩ => show win0_1.index t 1 * 128 + 1 * d.val = d.val; rw [(idx1 t).2]; omega

theorem blk2 (c : Dev nD) (t : Fin cfg0.N) (r d : Fin 128) :
    (iblk m c 2 t : Vec F S128x128 .f32) (ix2 r d) = V m c main_v0 (ix2 (crow t r) d) := by
  unfold iblk
  rw [View.read_apply]
  show V m c main_v0 _ = V m c main_v0 _
  refine congrArg (V m c main_v0) (funext fun a => Fin.ext ?_)
  match a with
  | ⟨0, _⟩ => show win0_2.index t 0 * 128 + 1 * r.val = 128 * (t.val % 32) + r.val; rw [(idx2 t).1]; omega
  | ⟨1, _⟩ => show win0_2.index t 1 * 128 + 1 * d.val = d.val; rw [(idx2 t).2]; omega

theorem blk3 (c : Dev nD) (t : Fin cfg0.N) (r d : Fin 128) :
    (iblk m c 3 t : Vec F S128x128 .f32) (ix2 r d) = V m c main_v3 (ix2 (crow t r) d) := by
  unfold iblk
  rw [View.read_apply]
  show V m c main_v3 _ = V m c main_v3 _
  refine congrArg (V m c main_v3) (funext fun a => Fin.ext ?_)
  match a with
  | ⟨0, _⟩ => show win0_3.index t 0 * 128 + 1 * r.val = 128 * (t.val % 32) + r.val; rw [(idx3 t).1]; omega
  | ⟨1, _⟩ => show win0_3.index t 1 * 128 + 1 * d.val = d.val; rw [(idx3 t).2]; omega

theorem blk4 (c : Dev nD) (t : Fin cfg0.N) (r d : Fin 128) :
    (iblk m c 4 t : Vec F S128x128 .f32) (ix2 r d) = V m c main_v4 (ix2 (crow t r) d) := by
  unfold iblk
  rw [View.read_apply]
  show V m c main_v4 _ = V m c main_v4 _
  refine congrArg (V m c main_v4) (funext fun a => Fin.ext ?_)
  match a with
  | ⟨0, _⟩ => show win0_4.index t 0 * 128 + 1 * r.val = 128 * (t.val % 32) + r.val; rw [(idx4 t).1]; omega
  | ⟨1, _⟩ => show win0_4.index t 1 * 128 + 1 * d.val = d.val; rw [(idx4 t).2]; omega

theorem blk5 (c : Dev nD) (t : Fin cfg0.N) (r : Fin 128) :
    (iblk m c 5 t : Vec F S1x128 .f32) (ix2 (0 : Fin 1) r) = V m c main_v9 (ix2 (0 : Fin 1) (crow t r)) := by
  unfold iblk
  rw [View.read_apply]
  show V m c main_v9 _ = V m c main_v9 _
  refine congrArg (V m c main_v9) (funext fun a => Fin.ext ?_)
  match a with
  | ⟨0, _⟩ => show win0_5.index t 0 * 1 + 1 * 0 = 0; rw [(idx5 t).1]
  | ⟨1, _⟩ => show win0_5.index t 1 * 128 + 1 * r.val = 128 * (t.val % 32) + r.val; rw [(idx5 t).2]; omega

theorem blk6 (c : Dev nD) (t : Fin cfg0.N) (r : Fin 128) (k : Fin 32) :
    (iblk m c 6 t : Vec F S128x32 .f32) (ix2 r k) = V m c main_arg2 (ix2 (crow t r) k) := by
  unfold iblk
  rw [View.read_apply]
  show V m c main_arg2 _ = V m c main_arg2 _
  refine congrArg (V m c main_arg2) (funext fun a => Fin.ext ?_)
  match a with
  | ⟨0, _⟩ => show win0_6.index t 0 * 128 + 1 * r.val = 128 * (t.val % 32) + r.val; rw [(idx6 t).1]; omega
  | ⟨1, _⟩ => show win0_6.index t 1 * 32 + 1 * k.val = k.val; rw [(idx6 t).2]; omega

/-! ### A block of a whole-array function, read back -/

theorem read8 (G : S256x4096.Idx → Elt F .f32) (t : Fin cfg0.N) (p r : Fin 128) :
    (((cfg0.win 8).blk t).view.read (Elt F) G : Vec F S128x128 .f32) (ix2 p r) = G (ix2 (qrow t p) (crow t r)) := by
  rw [View.read_apply]
  show G _ = G _
  refine congrArg G (funext fun a => Fin.ext ?_)
  match a with
  | ⟨0, _⟩ => show win0_8.index t 0 * 128 + 1 * p.val = 128 * (t.val / 32) + p.val; rw [(idx8 t).1]; omega
  | ⟨1, _⟩ => show win0_8.index t 1 * 128 + 1 * r.val = 128 * (t.val % 32) + r.val; rw [(idx8 t).2]; omega

theorem read9 (G : S256x4096x128.Idx → Elt F .f32) (t : Fin cfg0.N) (p r d : Fin 128) :
    (((cfg0.win 9).blk t).view.read (Elt F) G : Vec F S128x128x128 .f32) (ix3 p r d) = G (ix3 (qrow t p) (crow t r) d) := by
  rw [View.read_apply]
  show G _ = G _
  refine congrArg G (funext fun a => Fin.ext ?_)
  match a with
  | ⟨0, _⟩ => show win0_9.index t 0 * 128 + 1 * p.val = 128 * (t.val / 32) + p.val; rw [(idx9 t).1]; omega
  | ⟨1, _⟩ => show win0_9.index t 1 * 128 + 1 * r.val = 128 * (t.val % 32) + r.val; rw [(idx9 t).2.1]; omega
  | ⟨2, _⟩ => show win0_9.index t 2 * 128 + 1 * d.val = d.val; rw [(idx9 t).2.2]; omega

theorem read7 (G : S256x32.Idx → Elt F .f32) (t : Fin cfg0.N) (p : Fin 128) (k : Fin 32) :
    (((cfg0.win 7).blk t).view.read (Elt F) G : Vec F S128x32 .f32) (ix2 p k) = G (ix2 (qrow t p) k) := by
  rw [View.read_apply]
  show G _ = G _
  refine congrArg G (funext fun a => Fin.ext ?_)
  match a with
  | ⟨0, _⟩ => show win0_7.index t 0 * 128 + 1 * p.val = 128 * (t.val / 32) + p.val; rw [(idx7 t).1]; omega
  | ⟨1, _⟩ => show win0_7.index t 1 * 32 + 1 * k.val = k.val; rw [(idx7 t).2]; omega

/-! ### Every entry of an output array lies in the block of some point that writes its block back -/

/-- Entry (a, n) of the activations lies in the block of the point  32 * (a / 128) + n / 128. -/
theorem cover8 (i : S256x4096.Idx) :
    ∃ t : Fin cfg0.N, (cfg0.win 8).flush t = true ∧ i ∈ ((cfg0.win 8).blk t).view.set := by
  have hN : cfg0.N = 64 := N_0
  have h0 : (i 0 : Nat) < 256 := (i 0).isLt
  have h1 : (i 1 : Nat) < 4096 := (i 1).isLt
  obtain ⟨t, ht⟩ : ∃ t : Fin cfg0.N, t.val = 32 * ((i 0 : Nat) / 128) + (i 1 : Nat) / 128 :=
    ⟨⟨32 * ((i 0 : Nat) / 128) + (i 1 : Nat) / 128, by omega⟩, rfl⟩
  refine ⟨t, flush0_8 t, ?_⟩
  show i ∈ ((View.whole main_v10_1).slice (win0_8.rect t)).set
  rw [View.set_slice_whole, Rect.mem_set_unit]
  intro a
  match a with
  | ⟨0, _⟩ =>
    show win0_8.index t 0 * 128 ≤ (i 0 : Nat) ∧ (i 0 : Nat) < win0_8.index t 0 * 128 + 128
    rw [(idx8 t).1, ht]; omega
  | ⟨1, _⟩ =>
    show win0_8.index t 1 * 128 ≤ (i 1 : Nat) ∧ (i 1 : Nat) < win0_8.index t 1 * 128 + 128
    rw [(idx8 t).2, ht]; omega

/-- Entry (a, n, d) of the weighted distances lies in the block of the point  32 * (a / 128) + n / 128. -/
theorem cover9 (i : S256x4096x128.Idx) :
    ∃ t : Fin cfg0.N, (cfg0.win 9).flush t = true ∧ i ∈ ((cfg0.win 9).blk t).view.set := by
  have hN : cfg0.N = 64 := N_0
  have h0 : (i 0 : Nat) < 256 := (i 0).isLt
  have h1 : (i 1 : Nat) < 4096 := (i 1).isLt
  have h2 : (i 2 : Nat) < 128 := (i 2).isLt
  obtain ⟨t, ht⟩ : ∃ t : Fin cfg0.N, t.val = 32 * ((i 0 : Nat) / 128) + (i 1 : Nat) / 128 :=
    ⟨⟨32 * ((i 0 : Nat) / 128) + (i 1 : Nat) / 128, by omega⟩, rfl⟩
  refine ⟨t, flush0_9 t, ?_⟩
  show i ∈ ((View.whole main_v10_2).slice (win0_9.rect t)).set
  rw [View.set_slice_whole, Rect.mem_set_unit]
  intro a
  match a with
  | ⟨0, _⟩ =>
    show win0_9.index t 0 * 128 ≤ (i 0 : Nat) ∧ (i 0 : Nat) < win0_9.index t 0 * 128 + 128
    rw [(idx9 t).1, ht]; omega
  | ⟨1, _⟩ =>
    show win0_9.index t 1 * 128 ≤ (i 1 : Nat) ∧ (i 1 : Nat) < win0_9.index t 1 * 128 + 128
    rw [(idx9 t).2.1, ht]; omega
  | ⟨2, _⟩ =>
    show win0_9.index t 2 * 128 ≤ (i 2 : Nat) ∧ (i 2 : Nat) < win0_9.index t 2 * 128 + 128
    rw [(idx9 t).2.2]; omega

/-- Entry (a, k) of the aggregation lies in the block of the LAST point of its row of points,  32 * (a / 128) + 31,
    the one that writes the block back. -/
theorem cover7 (i : S256x32.Idx) :
    ∃ t : Fin cfg0.N, (cfg0.win 7).flush t = true ∧ i ∈ ((cfg0.win 7).blk t).view.set := by
  have hN : cfg0.N = 64 := N_0
  have h0 : (i 0 : Nat) < 256 := (i 0).isLt
  have h1 : (i 1 : Nat) < 32 := (i 1).isLt
  obtain ⟨t, ht⟩ : ∃ t : Fin cfg0.N, t.val = 32 * ((i 0 : Nat) / 128) + 31 :=
    ⟨⟨32 * ((i 0 : Nat) / 128) + 31, by omega⟩, rfl⟩
  refine ⟨t, (flush0_7 t).mpr (by rw [ht]; omega), ?_⟩
  show i ∈ ((View.whole main_v10_0).slice (win0_7.rect t)).set
  rw [View.set_slice_whole, Rect.mem_set_unit]
  intro a
  match a with
  | ⟨0, _⟩ =>
    show win0_7.index t 0 * 128 ≤ (i 0 : Nat) ∧ (i 0 : Nat) < win0_7.index t 0 * 128 + 128
    rw [(idx7 t).1, ht]; omega
  | ⟨1, _⟩ =>
    show win0_7.index t 1 * 32 ≤ (i 1 : Nat) ∧ (i 1 : Nat) < win0_7.index t 1 * 32 + 32
    rw [(idx7 t).2]; omega

end Cert.KernelBlocks

end
-- ==== Proof.KernelHost.lean ====
/-
  What the region finds in the four arrays the host stretch of the kernel's program computes before the launch.

  From the feature weights fw, the distance weights dw, the cases c and the bias beta (each as launched) the host
  operations compute, in order: s = softplus fw; w' = s * (-|dw|); c w'; and the row  kb = (0 + sum_d c^2 w') + beta
  laid out as one row of 4096 lanes. They are named here as whole-array terms, for any float values, and then read
  at an index over the extended reals.
-/
import proofs.«125842_j19404662243695_2_alg».proof.Proof.Gen.KernelIdeal.Frame
import proofs.«125842_j19404662243695_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelHost

open Cert.KernelIdeal Cert.KernelIdeal.Gen Cert.CaseSpec
open Idealize.ShloMosaic Idealize.ShloMosaic.TcCoe Idealize.SL.Sem Idealize.ShloMosaic.StableHlo Idealize.ShloMosaic.ValueIdx

section Terms

variable {F : FTy → Type} [FloatOps F]

/-- The zero array the softplus compares and shifts against. -/
def zeros : FVec F S4096x128 .f32 := broadcastInDim S4096x128 ![] bcast_S_S4096x128 (constant S_ .f32 0x00000000#32)

/-- softplus of every entry: max x 0 + log1p (exp (-|x - 0|)), behind the never-firing guard. -/
def spArr (x : FVec F S4096x128 .f32) : FVec F S4096x128 .f32 :=
  select (cmpf .une (subf x zeros) (subf x zeros)) (addf x zeros)
    (addf (maximumf x zeros) (Host.log1p (Host.exp (Host.negf (Host.absf (subf x zeros))))))

/-- w' = softplus fw * (-|dw|). -/
def wArr (fw dw : FVec F S4096x128 .f32) : FVec F S4096x128 .f32 := mulf (spArr fw) (Host.negf (Host.absf dw))

/-- c w'. -/
def cwArr (cs fw dw : FVec F S4096x128 .f32) : FVec F S4096x128 .f32 := mulf cs (wArr fw dw)

/-- kb = (0 + sum over the features of c^2 w') + beta, as a vector of 4096 entries … -/
def kbVec (cs fw dw : FVec F S4096x128 .f32) (b : FVec F S4096 .f32) : FVec F S4096 .f32 :=
  addf (Host.reduceAdd (mulf (mulf cs cs) (wArr fw dw)) (constant S_ .f32 0x00000000#32) reducesTo_S4096x128_S4096_d1 h_S_) b

end Terms

section Found

variable {F : FTy → Type} [FloatOps F]
variable (m : (ℓ : Loc nD τ sig) → Buf (Elt F) ℓ)

set_option maxHeartbeats 1000000 in
/-- The region finds softplus of the feature weights in the third window's array. -/
theorem found_sp (c : Dev nD) :
    (V m c main_v0 : FVec F S4096x128 .f32) = spArr (m ((c : Thread nD τ).loc main_arg3)) := by
  unfold spArr zeros
  dsimp only [V]
  simp only [hostOps0, hostOps0_1, List.flatten_cons, List.flatten_nil, List.append_nil, List.cons_append, List.nil_append]
  after_results_simp
  simp only [TRef.toBuf, TRef.ofBuf, cast_eq]

set_option maxHeartbeats 1000000 in
/-- … w' in the fourth … -/
theorem found_w (c : Dev nD) :
    (V m c main_v3 : FVec F S4096x128 .f32) = wArr (m ((c : Thread nD τ).loc main_arg3)) (m ((c : Thread nD τ).loc main_arg4)) := by
  unfold wArr spArr zeros
  dsimp only [V]
  simp only [hostOps0, hostOps0_1, List.flatten_cons, List.flatten_nil, List.append_nil, List.cons_append, List.nil_append]
  after_results_simp
  simp only [TRef.toBuf, TRef.ofBuf, cast_eq]

set_option maxHeartbeats 1000000 in
/-- … c w' in the fifth … -/
theorem found_cw (c : Dev nD) :
    (V m c main_v4 : FVec F S4096x128 .f32)
      = cwArr (m ((c : Thread nD τ).loc main_arg1)) (m ((c : Thread nD τ).loc main_arg3)) (m ((c : Thread nD τ).loc main_arg4)) := by
  unfold cwArr wArr spArr zeros
  dsimp only [V]
  simp only [hostOps0, hostOps0_1, List.flatten_cons, List.flatten_nil, List.append_nil, List.cons_append, List.nil_append]
  after_results_simp
  simp only [TRef.toBuf, TRef.ofBuf, cast_eq]

set_option maxHeartbeats 2000000 in
/-- … and the row kb in the sixth. -/
theorem found_kb (c : Dev nD) :
    (V m c main_v9 : FVec F S1x4096 .f32)
      = shapeCast S1x4096 (kbVec (m ((c : Thread nD τ).loc main_arg1)) (m ((c : Thread nD τ).loc main_arg3))
          (m ((c : Thread nD τ).loc main_arg4)) (m ((c : Thread nD τ).loc main_arg5))) shapeCasts_S4096_S1x4096 := by
  unfold kbVec wArr spArr zeros
  dsimp only [V]
  simp only [hostOps0, hostOps0_1, List.flatten_cons, List.flatten_nil, List.append_nil, List.cons_append, List.nil_append]
  after_results_simp
  simp only [TRef.toBuf, TRef.ofBuf, cast_eq]
  rfl

end Found

/-! ## The four arrays at an entry, over the extended reals -/

section AtIdeal

theorem zeros_apply (i : S4096x128.Idx) : zeros (F := Ideal) i = zeroC :=
  (broadcastInDim_apply _ bcast_S_S4096x128 (constant (F := Ideal) S_ .f32 0x00000000#32) i ix0 (fun a => a.elim0)).trans rfl

/-- Entry (n, d) of the softplus array is the scalar softplus of the operand's entry. -/
theorem spArr_apply (x : FVec Ideal S4096x128 .f32) (n : Fin 4096) (d : Fin 128) :
    spArr x (ix2 n d) = softplus (x (ix2 n d)) := by
  show Scalar.select (FloatOps.cmpf .une (FloatOps.subf (x (ix2 n d)) (zeros (ix2 n d))) (FloatOps.subf (x (ix2 n d)) (zeros (ix2 n d))))
      (FloatOps.addf (x (ix2 n d)) (zeros (ix2 n d)))
      (FloatOps.addf (FloatOps.maximumf (x (ix2 n d)) (zeros (ix2 n d)))
        (FloatOps.hostUnary .log1p (FloatOps.hostUnary .exp (FloatOps.hostNegf (FloatOps.hostAbsf (FloatOps.subf (x (ix2 n d)) (zeros (ix2 n d)))))))) = _
  rw [zeros_apply]
  rfl

/-- Entry (n, d) of w' is softplus fw times -|dw| there. -/
theorem wArr_apply (fw dw : FVec Ideal S4096x128 .f32) (n : Fin 4096) (d : Fin 128) :
    wArr fw dw (ix2 n d) = wP (mat fw) (mat dw) n d := by
  show spArr fw (ix2 n d) * FloatOps.hostNegf (FloatOps.hostAbsf (dw (ix2 n d))) = _
  rw [spArr_apply]
  rfl

/-- Entry (n, d) of c w'. -/
theorem cwArr_apply (cs fw dw : FVec Ideal S4096x128 .f32) (n : Fin 4096) (d : Fin 128) :
    cwArr cs fw dw (ix2 n d) = mat cs n d * wP (mat fw) (mat dw) n d := by
  show cs (ix2 n d) * wArr fw dw (ix2 n d) = _
  rw [wArr_apply]
  rfl

/-- Entry n of kb: the sum over the features of c^2 w', from zero, plus the bias. -/
theorem kbVec_apply (cs fw dw : FVec Ideal S4096x128 .f32) (b : FVec Ideal S4096 .f32) (n : Fin 4096) :
    kbVec cs fw dw b (ix1 n) = (zeroC + ∑ d : Fin 128, (mat cs n d * mat cs n d) * wP (mat fw) (mat dw) n d) + vec b n := by
  unfold kbVec
  show Host.reduceAdd (F := Ideal) (mulf (mulf cs cs) (wArr fw dw)) (constant (F := Ideal) S_ .f32 0x00000000#32) reducesTo_S4096x128_S4096_d1 h_S_ (ix1 n) + b (ix1 n) = _
  refine congrArg (· + b (ix1 n)) ?_
  generalize hy : mulf (mulf cs cs) (wArr fw dw) = y0
  simp only [Host.reduceAdd, Ideal.hostReduceAdd_def]
  rw [Ideal.hostReduceAdd_single reducesTo_S4096x128_S4096_d1 (by decide)]
  refine congrArg (_ + ·) (Finset.sum_congr rfl fun (k : Fin 128) _ => ?_)
  subst hy
  refine (congrArg (mulf (mulf cs cs) (wArr fw dw)) (funext fun a => Fin.ext (by match a with | ⟨0, _⟩ => rfl | ⟨1, _⟩ => rfl))
    : _ = mulf (mulf cs cs) (wArr fw dw) (ix2 n k)).trans ?_
  show cs (ix2 n k) * cs (ix2 n k) * wArr fw dw (ix2 n k) = _
  rw [wArr_apply]
  rfl

/-- The row the sixth window stages: lane n of its one row is entry n of kb. -/
theorem kbRow_apply (cs fw dw : FVec Ideal S4096x128 .f32) (b : FVec Ideal S4096 .f32) (n : Fin 4096) :
    shapeCast S1x4096 (kbVec cs fw dw b) shapeCasts_S4096_S1x4096 (ix2 (0 : Fin 1) n)
      = (zeroC + ∑ d : Fin 128, (mat cs n d * mat cs n d) * wP (mat fw) (mat dw) n d) + vec b n :=
  (shapeCast_a_1a_apply (kbVec cs fw dw b) shapeCasts_S4096_S1x4096 (0 : Fin 1) n).trans (kbVec_apply cs fw dw b n)

end AtIdeal

end Cert.KernelHost

end
-- ==== Proof.LibGridSum.lean ====
import Mathlib.Algebra.BigOperators.Fin
import Mathlib.Data.Fintype.BigOperators
import Mathlib.Logic.Equiv.Fin.Basic

/-!
# Sums over a row axis cut into equal blocks, and sums accumulated block by block

Program-free (Mathlib only). In any commutative additive monoid:

* `GridSum.sum_split_rows`: a sum over `N = T * R` rows is the sum over the `T` blocks of the sum over the `R` rows
  of each block, row `r` of block `t` being row `R * t + r`;
* `GridSum.sum_castLE_succ`: the sum of the first `n + 2` blocks is the sum of the first `n + 1` plus block `n + 1`
  (the step of an accumulator carried from one block to the next);
* `GridSum.sum_castLE_all`: the sum of the first `T` blocks is the sum of all blocks.
-/

namespace GridSum

variable {M : Type*} [AddCommMonoid M]

/-- Row `r` of block `t`, among `N = T * R` rows. -/
def row {N : ℕ} (T R : ℕ) (h : T * R = N) (t : Fin T) (r : Fin R) : Fin N :=
  ⟨R * t.val + r.val, by
    have h1 : R * t.val + r.val < R * t.val + R := Nat.add_lt_add_left r.isLt _
    have h2 : R * t.val + R ≤ R * T := by
      rw [← Nat.mul_succ]; exact Nat.mul_le_mul_left _ t.isLt
    rw [← h, Nat.mul_comm T R]; exact Nat.lt_of_lt_of_le h1 h2⟩

theorem row_val {N : ℕ} (T R : ℕ) (h : T * R = N) (t : Fin T) (r : Fin R) :
    (row T R h t r).val = R * t.val + r.val := rfl

/-- A sum over `T * R` rows, block by block. -/
theorem sum_split_rows {N : ℕ} (T R : ℕ) (h : T * R = N) (g : Fin N → M) :
    ∑ p, g p = ∑ t : Fin T, ∑ r : Fin R, g (row T R h t r) := by
  subst h
  rw [← Equiv.sum_comp finProdFinEquiv g, Fintype.sum_prod_type]
  refine Finset.sum_congr rfl fun t _ => Finset.sum_congr rfl fun r _ => congrArg g (Fin.ext ?_)
  simp only [finProdFinEquiv_apply_val, row_val]
  omega

/-- The first `n + 2` blocks are the first `n + 1` and block `n + 1`. -/
theorem sum_castLE_succ {T : ℕ} (B : Fin T → M) (n : ℕ) (h : n + 2 ≤ T) :
    ∑ t : Fin (n + 2), B (Fin.castLE h t)
      = ∑ t : Fin (n + 1), B (Fin.castLE (Nat.le_of_succ_le h) t) + B ⟨n + 1, h⟩ := by
  rw [Fin.sum_univ_castSucc]
  rfl

/-- The first block alone. -/
theorem sum_castLE_one {T : ℕ} (B : Fin T → M) (h : 0 + 1 ≤ T) :
    ∑ t : Fin (0 + 1), B (Fin.castLE h t) = B ⟨0, h⟩ := by
  rw [Fin.sum_univ_succ]
  simp
  rfl

/-- All `T` blocks. -/
theorem sum_castLE_all {T : ℕ} (B : Fin T → M) (h : T ≤ T) :
    ∑ t : Fin T, B (Fin.castLE h t) = ∑ t : Fin T, B t :=
  Finset.sum_congr rfl fun t _ => congrArg B (Fin.ext rfl)

end GridSum
-- ==== Proof.Laws.lean ====
import proofs.«125842_j19404662243695_2_alg».proof.Proof.Spec
import proofs.«125842_j19404662243695_2_alg».proof.Proof.LibGridSum
import Idealize.ShloMosaic.PureOps.Ideal.Laws

/-!
  The real-number algebra that joins the two spellings of the same numbers.

  Every array entry is assumed to be a real number.  Then the softplus and -|.| weights are real, every finite
  sum of reals is real, and the two identities are identities of real polynomials and quotients:

    (q - c)^2 s w  =  q^2 (s w) - 2 q (c (s w)) + c^2 (s w)        termwise, then summed over the features;
    sum_n (a_n / D) t_n  =  (sum_n a_n t_n) / D                     with D = (0 + sum_n a_n) + eps > 0,

  the sum over the 4096 cases being the sum over the 32 tiles of the sum over the 128 cases of a tile.
-/

noncomputable section

namespace Cert.CaseSpec

open Idealize.ShloMosaic

/-! ### The constants -/

theorem zeroC_eq : (zeroC : EReal) = 0 := by
  show Ideal.ofBits .f32 0x00000000#32 = 0
  exact Ideal.ofBits_zero_f32

/-- The word 0x3F800000 has sign 0, exponent field 127 and fraction 0: the number 2^23 * 2^(-23) = 1. -/
theorem oneC_eq : (oneC : EReal) = ((1 : ℝ) : EReal) := by
  show Ideal.ofBits .f32 0x3F800000#32 = _
  simp [Ideal.ofBits, Ideal.ieee]
  rw [← EReal.coe_mul]
  norm_num

/-- The word 0x40000000 has sign 0, exponent field 128 and fraction 0: the number 2^23 * 2^(-22) = 2. -/
theorem twoC_eq : (twoC : EReal) = ((2 : ℝ) : EReal) := by
  show Ideal.ofBits .f32 0x40000000#32 = _
  simp [Ideal.ofBits, Ideal.ieee]
  rw [← EReal.coe_mul]
  norm_num

/-- The word 0x3C23D70A has sign 0, exponent field 120 and fraction 2348810: the positive number
    10737418 * 2^(-30). -/
theorem epsC_pos : ∃ e : ℝ, (epsC : EReal) = (e : EReal) ∧ 0 < e := by
  show ∃ e : ℝ, Ideal.ofBits .f32 0x3C23D70A#32 = (e : EReal) ∧ 0 < e
  simp [Ideal.ofBits, Ideal.ieee]
  rw [← EReal.coe_mul]
  exact ⟨_, rfl, by positivity⟩

/-! ### The scalar functions at a real argument -/

/-- The coercion of the reals is monotone, so it commutes with the maximum. -/
private theorem coe_max' (x y : ℝ) : max (x : EReal) (y : EReal) = ((max x y : ℝ) : EReal) :=
  (EReal.coe_strictMono.monotone.map_max).symm

/-- At a real argument the guard of softplus compares a number with itself, and the remaining branch is
    max r 0 + log (1 + exp (-|r|)), a real number since 1 + exp (-|r|) is positive. -/
theorem softplus_coe (r : ℝ) : ∃ s : ℝ, softplus ((r : ℝ) : EReal) = (s : EReal) := by
  refine ⟨max r 0 + Real.log (1 + Real.exp (-(max r (-r)))), ?_⟩
  have hsub : ((r : ℝ) : EReal) - zeroC = ((r : ℝ) : EReal) := by rw [zeroC_eq, sub_zero]
  have hpos : ¬ (1 + Real.exp (-(max r (-r))) ≤ 0) := not_le.mpr (by positivity)
  have hcmp : Ideal.cmp .une ((r : ℝ) : EReal) ((r : ℝ) : EReal) = 0#1 := by
    simp [Ideal.cmp]
  unfold softplus
  simp only [Ideal.subf_def, Ideal.addf_def, Ideal.maximumf_def, Ideal.hostUnary_log1p_def, Ideal.hostUnary_exp_def,
    Ideal.hostNegf_def, Ideal.hostAbsf_def, Ideal.negf_def, Ideal.absf_def, Ideal.cmpf_def, hsub]
  rw [hcmp, ValueIdx.select_zero, zeroC_eq, ← EReal.coe_zero, ← EReal.coe_neg, coe_max', coe_max', ← EReal.coe_neg,
    Ideal.exp_coe, Ideal.log1p, ← EReal.coe_one, ← EReal.coe_add, Ideal.log_coe, if_neg hpos, ← EReal.coe_add]

/-- At a real argument -|r| is the real number -(max r (-r)). -/
theorem negAbs_coe (r : ℝ) : ∃ s : ℝ, negAbs ((r : ℝ) : EReal) = (s : EReal) := by
  refine ⟨-(max r (-r)), ?_⟩
  unfold negAbs
  simp only [Ideal.hostNegf_def, Ideal.hostAbsf_def, Ideal.negf_def, Ideal.absf_def]
  rw [← EReal.coe_neg, coe_max', ← EReal.coe_neg]

/-- The spelled-out logistic function is the library's, the constant one being the number 1. -/
theorem sigm_eq_logistic (x : EReal) : sigm x = Ideal.logistic x := by
  unfold sigm Ideal.logistic
  simp only [Ideal.hostDivf_def, Ideal.addf_def, Ideal.hostUnary_exp_def, Ideal.hostNegf_def, Ideal.negf_def]
  rw [oneC_eq, EReal.coe_one]

/-- At a real argument the logistic function is the positive real 1 / (1 + exp (-r)). -/
theorem sigm_coe (r : ℝ) : ∃ s : ℝ, sigm ((r : ℝ) : EReal) = (s : EReal) ∧ 0 < s := by
  refine ⟨(1 + Real.exp (-r))⁻¹, ?_, by positivity⟩
  rw [sigm_eq_logistic, Ideal.logistic_coe]

/-! ### Sums of real numbers -/

/-- The coercion of the reals commutes with finite sums. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### The gate's argument -/

section Gate

variable {q : Fin 256 → Fin 128 → EReal} {c fw dw : Fin 4096 → Fin 128 → EReal} {β : Fin 4096 → EReal}

/-- Real entries give real queries, cases, bias, and real weights s = softplus fw and w = -|dw|. -/
private theorem real_data (hq : Real2 q) (hc : Real2 c) (hfw : Real2 fw) (hdw : Real2 dw) (hβ : Real1 β) :
    ∃ (qr : Fin 256 → Fin 128 → ℝ) (cr sr wr : Fin 4096 → Fin 128 → ℝ) (βr : Fin 4096 → ℝ),
      (∀ b d, q b d = (qr b d : EReal)) ∧ (∀ n d, c n d = (cr n d : EReal)) ∧
      (∀ n d, softplus (fw n d) = (sr n d : EReal)) ∧ (∀ n d, negAbs (dw n d) = (wr n d : EReal)) ∧
      (∀ n, β n = (βr n : EReal)) := by
  unfold Real2 at hq hc hfw hdw
  unfold Real1 at hβ
  choose qr hqr using hq
  choose cr hcr using hc
  choose fr hfr using hfw
  choose dr hdr using hdw
  choose βr hβr using hβ
  choose sr hsr using fun n d => softplus_coe (fr n d)
  choose wr hwr using fun n d => negAbs_coe (dr n d)
  exact ⟨qr, cr, sr, wr, βr, hqr, hcr, fun n d => by rw [hfr, hsr], fun n d => by rw [hdr, hwr], hβr⟩

variable {qr : Fin 256 → Fin 128 → ℝ} {cr sr wr : Fin 4096 → Fin 128 → ℝ} {βr : Fin 4096 → ℝ}

/-- With real data the gate's argument is the same expression over the reals. -/
private theorem pre_eq_real (hq : ∀ b d, q b d = (qr b d : EReal)) (hc : ∀ n d, c n d = (cr n d : EReal))
    (hs : ∀ n d, softplus (fw n d) = (sr n d : EReal)) (hw : ∀ n d, negAbs (dw n d) = (wr n d : EReal))
    (hβ : ∀ n, β n = (βr n : EReal)) (b : Fin 256) (n : Fin 4096) :
    pre q c fw dw β b n
      = (((∑ d : Fin 128, (qr b d - cr n d) * (qr b d - cr n d) * sr n d * wr n d) + βr n : ℝ) : EReal) := by
  unfold pre delta
  rw [zeroC_eq, zero_add, hβ, EReal.coe_add, coe_sum]
  refine congrArg (fun x => x + (βr n : EReal)) (Finset.sum_congr rfl fun d _ => ?_)
  rw [hq, hc, hs, hw, EReal.coe_mul, EReal.coe_mul, EReal.coe_mul, EReal.coe_sub]

/-- With real data the expanded argument is the expanded expression over the reals. -/
private theorem preK_eq_real (hq : ∀ b d, q b d = (qr b d : EReal)) (hc : ∀ n d, c n d = (cr n d : EReal))
    (hs : ∀ n d, softplus (fw n d) = (sr n d : EReal)) (hw : ∀ n d, negAbs (dw n d) = (wr n d : EReal))
    (hβ : ∀ n, β n = (βr n : EReal)) (b : Fin 256) (n : Fin 4096) :
    preK q c fw dw β b n
      = ((((∑ d : Fin 128, (qr b d * qr b d) * (sr n d * wr n d))
            - 2 * (∑ d : Fin 128, qr b d * (cr n d * (sr n d * wr n d))))
          + ((∑ d : Fin 128, (cr n d * cr n d) * (sr n d * wr n d)) + βr n) : ℝ) : EReal) := by
  unfold preK wP
  rw [zeroC_eq, zero_add, twoC_eq, hβ]
  simp only [hq, hc, hs, hw, EReal.coe_add, EReal.coe_sub, EReal.coe_mul, coe_sum]

theorem pre_coe (hq : Real2 q) (hc : Real2 c) (hfw : Real2 fw) (hdw : Real2 dw) (hβ : Real1 β) (b : Fin 256)
    (n : Fin 4096) : ∃ r : ℝ, pre q c fw dw β b n = (r : EReal) := by
  obtain ⟨qr, cr, sr, wr, βr, hq', hc', hs', hw', hβ'⟩ := real_data hq hc hfw hdw hβ
  exact ⟨_, pre_eq_real hq' hc' hs' hw' hβ' b n⟩

/-- Termwise (q - c)^2 s w = q^2 (s w) - 2 q (c (s w)) + c^2 (s w); summed over the features, with the
    bias added, the two spellings of the gate's argument agree. -/
theorem preK_eq_pre (hq : Real2 q) (hc : Real2 c) (hfw : Real2 fw) (hdw : Real2 dw) (hβ : Real1 β) (b : Fin 256)
    (n : Fin 4096) : preK q c fw dw β b n = pre q c fw dw β b n := by
  obtain ⟨qr, cr, sr, wr, βr, hq', hc', hs', hw', hβ'⟩ := real_data hq hc hfw hdw hβ
  rw [preK_eq_real hq' hc' hs' hw' hβ' b n, pre_eq_real hq' hc' hs' hw' hβ' b n]
  refine congrArg Real.toEReal ?_
  rw [Finset.mul_sum, ← Finset.sum_sub_distrib, ← add_assoc, ← Finset.sum_add_distrib]
  refine congrArg (fun x => x + βr n) (Finset.sum_congr rfl fun d _ => ?_)
  ring

/-- The activation is the logistic function at a real number, hence a positive real. -/
theorem act_pos (hq : Real2 q) (hc : Real2 c) (hfw : Real2 fw) (hdw : Real2 dw) (hβ : Real1 β) (b : Fin 256)
    (n : Fin 4096) : ∃ r : ℝ, act q c fw dw β b n = (r : EReal) ∧ 0 < r := by
  obtain ⟨r, hr⟩ := pre_coe hq hc hfw hdw hβ b n
  unfold act
  rw [hr]
  exact sigm_coe r

end Gate

/-! ### The normalised aggregation -/

/-- With positive real activations the normaliser D = (0 + sum_n a_n) + eps is a positive real, division by it
    is multiplication by 1 / D, and sum_n (a_n (1 / D)) t_n = (sum_n a_n t_n) (1 / D); the sums over the cases
    are the sums over the tiles of the sums over a tile's cases. -/
theorem yhatK_eq_yhat {t : Fin 4096 → Fin 32 → EReal} {a : Fin 256 → Fin 4096 → EReal}
    (ha : ∀ b n, ∃ r : ℝ, a b n = (r : EReal) ∧ 0 < r) (ht : Real2 t) (b : Fin 256) (k : Fin 32) :
    yhatK t a b k = yhat t a b k := by
  unfold Real2 at ht
  choose ar har hpos using ha
  choose tr htr using ht
  obtain ⟨e, he, hepos⟩ := epsC_pos
  -- the normaliser is a positive real
  have hDpos : 0 < (∑ n : Fin 4096, ar b n) + e :=
    add_pos_of_nonneg_of_pos (Finset.sum_nonneg fun n _ => (hpos b n).le) hepos
  have hnorm : norm a b = (((∑ n : Fin 4096, ar b n) + e : ℝ) : EReal) := by
    unfold norm
    rw [zeroC_eq, zero_add, he, EReal.coe_add, coe_sum]
    exact congrArg (fun x => x + (e : EReal)) (Finset.sum_congr rfl fun n _ => har b n)
  -- the sums tile by tile are the sums over all cases
  have h1 : ∑ j : Fin 32, ∑ r : Fin 128, a b (caseOf j r) * t (caseOf j r) k = ∑ n : Fin 4096, a b n * t n k :=
    (GridSum.sum_split_rows 32 128 rfl (fun n : Fin 4096 => a b n * t n k)).symm
  have h2 : ∑ j : Fin 32, ∑ r : Fin 128, a b (caseOf j r) = ∑ n : Fin 4096, a b n :=
    (GridSum.sum_split_rows 32 128 rfl (fun n : Fin 4096 => a b n)).symm
  have hK : yhatK t a b k = Ideal.div (zeroC + ∑ n : Fin 4096, a b n * t n k) (norm a b) := by
    unfold yhatK norm
    rw [h1, h2]
  -- both sides over the reals
  have hL : ∑ n : Fin 4096, a b n * t n k = ((∑ n : Fin 4096, ar b n * tr n k : ℝ) : EReal) := by
    rw [coe_sum]
    exact Finset.sum_congr rfl fun n _ => by rw [har, htr, EReal.coe_mul]
  have hR : ∑ n : Fin 4096, a b n * ((1 / ((∑ n : Fin 4096, ar b n) + e) : ℝ) : EReal) * t n k
      = ((∑ n : Fin 4096, ar b n * (1 / ((∑ n : Fin 4096, ar b n) + e)) * tr n k : ℝ) : EReal) := by
    rw [coe_sum]
    exact Finset.sum_congr rfl fun n _ => by rw [har, htr, EReal.coe_mul, EReal.coe_mul]
  rw [hK]
  unfold yhat
  rw [hnorm]
  simp only [Ideal.div_coe hDpos.ne']
  rw [zeroC_eq, zero_add, hL, hR, ← EReal.coe_mul]
  refine congrArg Real.toEReal ?_
  rw [Finset.sum_mul]
  exact Finset.sum_congr rfl fun n _ => by ring

end Cert.CaseSpec

end
-- ==== Proof.TileValues.lean ====
/-
  What the two tiles of the kernel body ARE, in the specification's terms.

  Given what a tile's input blocks hold — rows of the queries, rows of the cases, and rows of the weights derived
  from them — the tile of weighted squared distances is the specification's delta at the tile's rows, and the tile
  of activations is the specification's activation there: the expanded spelling of the gate's argument agrees with
  the direct one when every entry is a real number.
-/
import proofs.«125842_j19404662243695_2_alg».proof.Proof.Spec
import proofs.«125842_j19404662243695_2_alg».proof.Proof.Laws
import proofs.«125842_j19404662243695_2_alg».proof.Proof.Payloads

noncomputable section

namespace Cert.KernelTiles

open Cert.KernelIdeal Cert.KernelIdeal.Gen Cert.CaseSpec Cert.KernelPay Idealize.ShloMosaic Idealize.ShloMosaic.ValueIdx
open scoped BigOperators

variable (q : Fin 256 → Fin 128 → EReal) (c fw dw : Fin 4096 → Fin 128 → EReal) (β : Fin 4096 → EReal)

/-- The delta tile: with the queries' rows, the cases' rows and the softplus weights' rows in the three blocks, the
    entry `(p, r, d)` is the weighted squared distance per feature of query `qr p` and case `cr r`. -/
theorem delta_tile (qr : Fin 128 → Fin 256) (cr : Fin 128 → Fin 4096) (x0 x1 x2 : Vec Ideal S128x128 .f32)
    (h0 : ∀ p d : Fin 128, x0 (ix2 p d) = q (qr p) d)
    (h1 : ∀ r d : Fin 128, x1 (ix2 r d) = c (cr r) d)
    (h2 : ∀ r d : Fin 128, x2 (ix2 r d) = softplus (fw (cr r) d))
    (p r d : Fin 128) :
    k0_pay6 (F := Ideal) x0 x1 x2 (ix3 p r d) = delta q c fw (qr p) (cr r) d := by
  refine (pay6_apply x0 x1 x2 p r d).trans ?_
  rw [h0, h1, h2]
  rfl

/-- The activations tile: with the queries' rows, the folded weights' rows  w' = s w,  the rows  c w'  and the row
    (0 + c² · w') + β  in the four blocks, the entry `(p, r)` is the logistic function at the expanded gate's
    argument, which for real entries is the activation of query `qr p` and case `cr r`. -/
theorem act_tile (qr : Fin 128 → Fin 256) (cr : Fin 128 → Fin 4096) (x0 x3 x4 : Vec Ideal S128x128 .f32)
    (x5 : Vec Ideal S1x128 .f32)
    (hq : Real2 q) (hc : Real2 c) (hfw : Real2 fw) (hdw : Real2 dw) (hβ : Real1 β)
    (h0 : ∀ p d : Fin 128, x0 (ix2 p d) = q (qr p) d)
    (h3 : ∀ r d : Fin 128, x3 (ix2 r d) = wP fw dw (cr r) d)
    (h4 : ∀ r d : Fin 128, x4 (ix2 r d) = c (cr r) d * wP fw dw (cr r) d)
    (h5 : ∀ r : Fin 128, x5 (ix2 (0 : Fin 1) r)
      = (zeroC + ∑ d : Fin 128, (c (cr r) d * c (cr r) d) * wP fw dw (cr r) d) + β (cr r))
    (p r : Fin 128) :
    k0_pay7 (F := Ideal) x0 x3 x4 x5 (ix2 p r) = act q c fw dw β (qr p) (cr r) := by
  refine (pay7_apply x0 x3 x4 x5 p r).trans ?_
  have e1 : (∑ d : Fin 128, (x0 (ix2 p d) * x0 (ix2 p d)) * x3 (ix2 r d))
      = ∑ d : Fin 128, (q (qr p) d * q (qr p) d) * wP fw dw (cr r) d :=
    Finset.sum_congr rfl fun d _ => by rw [h0, h3]
  have e2 : (∑ d : Fin 128, x0 (ix2 p d) * x4 (ix2 r d))
      = ∑ d : Fin 128, q (qr p) d * (c (cr r) d * wP fw dw (cr r) d) :=
    Finset.sum_congr rfl fun d _ => by rw [h0, h4]
  rw [e1, e2, h5 r]
  show Ideal.logistic (preK q c fw dw β (qr p) (cr r)) = sigm (pre q c fw dw β (qr p) (cr r))
  rw [preK_eq_pre hq hc hfw hdw hβ, sigm_eq_logistic]

end Cert.KernelTiles

end
-- ==== Proof.TileInputs.lean ====
/-
  What the kernel's body reads at a grid point, in the specification's terms.

  Point t of the 2 x 32 grid works on the query rows 128 (t / 32) + p and the case rows 128 (t mod 32) + r. Its seven
  input blocks hold, entry by entry: the queries; the cases; softplus of the feature weights; w' = softplus fw * (-|dw|);
  c w'; the lane 128 (t mod 32) + r of the row kb = (0 + sum_d c^2 w') + beta; the targets. From these the activations
  tile the body computes is the specification's activation at those rows (given that every input entry is a real number:
  the body uses the expanded form of the weighted distance), and its delta tile is the specification's delta.
-/
import proofs.«125842_j19404662243695_2_alg».proof.Proof.Spec
import proofs.«125842_j19404662243695_2_alg».proof.Proof.Blocks
import proofs.«125842_j19404662243695_2_alg».proof.Proof.KernelHost
import proofs.«125842_j19404662243695_2_alg».proof.Proof.TileValues

noncomputable section

namespace Cert.KernelInputs

open Cert.KernelIdeal Cert.KernelIdeal.Gen Cert.CaseSpec Cert.KernelBlocks Cert.KernelHost Cert.KernelTiles
open Idealize.ShloMosaic Idealize.ShloMosaic.TcCoe Idealize.SL.Sem Idealize.ShloMosaic.ValueIdx

variable (m : (ℓ : Loc nD τ sig) → Buf (Elt Ideal) ℓ) (c : Dev nD)

/-- Every entry of the six argument arrays, as launched, is a real number. -/
abbrev FiniteArgs : Prop :=
  Real2 (mat (m ((c : Thread nD τ).loc main_arg0))) ∧ Real2 (mat (m ((c : Thread nD τ).loc main_arg1))) ∧ Real2 (mat (m ((c : Thread nD τ).loc main_arg2))) ∧ Real2 (mat (m ((c : Thread nD τ).loc main_arg3))) ∧ Real2 (mat (m ((c : Thread nD τ).loc main_arg4))) ∧ Real1 (vec (m ((c : Thread nD τ).loc main_arg5)))

/-- The specification's activations of the launch arrays. -/
abbrev A : Fin 256 → Fin 4096 → EReal := actFn (m ((c : Thread nD τ).loc main_arg0)) (m ((c : Thread nD τ).loc main_arg1)) (m ((c : Thread nD τ).loc main_arg3)) (m ((c : Thread nD τ).loc main_arg4)) (m ((c : Thread nD τ).loc main_arg5))

theorem in0 (t : Fin cfg0.N) (p d : Fin 128) :
    (iblk m c 0 t : Vec Ideal S128x128 .f32) (ix2 p d) = mat (m ((c : Thread nD τ).loc main_arg0)) (qrow t p) d :=
  (blk0 m c t p d).trans (congrFun (V_main_arg0 m c) _)

theorem in1 (t : Fin cfg0.N) (r d : Fin 128) :
    (iblk m c 1 t : Vec Ideal S128x128 .f32) (ix2 r d) = mat (m ((c : Thread nD τ).loc main_arg1)) (crow t r) d :=
  (blk1 m c t r d).trans (congrFun (V_main_arg1 m c) _)

theorem in2 (t : Fin cfg0.N) (r d : Fin 128) :
    (iblk m c 2 t : Vec Ideal S128x128 .f32) (ix2 r d) = softplus (mat (m ((c : Thread nD τ).loc main_arg3)) (crow t r) d) :=
  (blk2 m c t r d).trans ((congrFun (found_sp m c) _).trans (spArr_apply _ _ _))

theorem in3 (t : Fin cfg0.N) (r d : Fin 128) :
    (iblk m c 3 t : Vec Ideal S128x128 .f32) (ix2 r d) = wP (mat (m ((c : Thread nD τ).loc main_arg3))) (mat (m ((c : Thread nD τ).loc main_arg4))) (crow t r) d :=
  (blk3 m c t r d).trans ((congrFun (found_w m c) _).trans (wArr_apply _ _ _ _))

theorem in4 (t : Fin cfg0.N) (r d : Fin 128) :
    (iblk m c 4 t : Vec Ideal S128x128 .f32) (ix2 r d)
      = mat (m ((c : Thread nD τ).loc main_arg1)) (crow t r) d * wP (mat (m ((c : Thread nD τ).loc main_arg3))) (mat (m ((c : Thread nD τ).loc main_arg4))) (crow t r) d :=
  (blk4 m c t r d).trans ((congrFun (found_cw m c) _).trans (cwArr_apply _ _ _ _ _))

theorem in5 (t : Fin cfg0.N) (r : Fin 128) :
    (iblk m c 5 t : Vec Ideal S1x128 .f32) (ix2 (0 : Fin 1) r)
      = (zeroC + ∑ d : Fin 128, (mat (m ((c : Thread nD τ).loc main_arg1)) (crow t r) d * mat (m ((c : Thread nD τ).loc main_arg1)) (crow t r) d)
            * wP (mat (m ((c : Thread nD τ).loc main_arg3))) (mat (m ((c : Thread nD τ).loc main_arg4))) (crow t r) d) + vec (m ((c : Thread nD τ).loc main_arg5)) (crow t r) :=
  (blk5 m c t r).trans ((congrFun (found_kb m c) _).trans (kbRow_apply _ _ _ _ _))

theorem in6 (t : Fin cfg0.N) (r : Fin 128) (k : Fin 32) :
    (iblk m c 6 t : Vec Ideal S128x32 .f32) (ix2 r k) = mat (m ((c : Thread nD τ).loc main_arg2)) (crow t r) k :=
  (blk6 m c t r k).trans (congrFun (V_main_arg2 m c) _)

/-- The activations tile the body computes at point t. -/
def actTile (t : Fin cfg0.N) : FVec Ideal S128x128 .f32 :=
  k0_pay7 (F := Ideal) (iblk m c 0 t) (iblk m c 3 t) (iblk m c 4 t) (iblk m c 5 t)

/-- It is the specification's activation of query row 128 (t / 32) + p and case row 128 (t mod 32) + r. -/
theorem actTile_apply (hfin : FiniteArgs m c) (t : Fin cfg0.N) (p r : Fin 128) :
    actTile m c t (ix2 p r) = A m c (qrow t p) (crow t r) :=
  act_tile _ _ _ _ _ (qrow t) (crow t) _ _ _ _ hfin.1 hfin.2.1 hfin.2.2.2.1 hfin.2.2.2.2.1 hfin.2.2.2.2.2
    (in0 m c t) (in3 m c t) (in4 m c t) (in5 m c t) p r

/-- The delta tile the body computes at point t is the specification's delta at those rows. -/
theorem deltaTile_apply (t : Fin cfg0.N) (p r d : Fin 128) :
    k0_pay6 (F := Ideal) (iblk m c 0 t) (iblk m c 1 t) (iblk m c 2 t) (ix3 p r d)
      = delta (mat (m ((c : Thread nD τ).loc main_arg0))) (mat (m ((c : Thread nD τ).loc main_arg1))) (mat (m ((c : Thread nD τ).loc main_arg3))) (qrow t p) (crow t r) d :=
  delta_tile _ _ _ (qrow t) (crow t) _ _ _ (in0 m c t) (in1 m c t) (in2 m c t) p r d

end Cert.KernelInputs

end
-- ==== Proof.Folds.lean ====
/-
  The two accumulators the kernel carries along a row of 32 case tiles, after each grid point.

  At the first tile of a row the body stores zero into both and then adds the tile's contribution; at every later tile
  it adds to what the tile before left. So after the tile s of a row the numerator holds, at (p, k),
      0 + sum over the tiles s' <= s of  sum_r act(p, r) * target(r, k)
  and the normaliser column, at (p, 0),
      0 + sum over the tiles s' <= s of  sum_r act(p, r)
  with act and target the tile's blocks; and the output tile the body stores is the numerator over (the column + eps).
-/
import proofs.«125842_j19404662243695_2_alg».proof.Proof.Gen.KernelIdeal.Value
import proofs.«125842_j19404662243695_2_alg».proof.Proof.Pieces
import proofs.«125842_j19404662243695_2_alg».proof.Proof.Payloads
import proofs.«125842_j19404662243695_2_alg».proof.Proof.TileInputs
import Idealize.ShloMosaic.Lib.Pipeline.Value

noncomputable section

namespace Cert.KernelFolds

open Cert.KernelIdeal Cert.KernelIdeal.Gen Cert.CaseSpec Cert.KernelBlocks Cert.KernelInputs Cert.KernelPieces Cert.KernelPay
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-! ## One step of each accumulator -/

/-- At the first tile of a row the numerator becomes zero plus the tile's product, whatever it held. -/
theorem num_first (n : ℕ) (hb : n < cfg0.N) (h0 : n % 32 = 0) (acc : Vec Ideal S128x32 .f32) :
    Cert.KernelIdeal.Value.scAt0_0 m c n hb acc
      = k0_pay1 (F := Ideal) (actTile m c (⟨n, hb⟩ : Fin cfg0.N)) (iblk m c 6 (⟨n, hb⟩ : Fin cfg0.N)) (k0_pay4 (F := Ideal)) := by
  unfold Cert.KernelIdeal.Value.scAt0_0
  rw [dif_pos h0]
  exact tileA_num (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))

/-- At a later tile it becomes what it held plus the tile's product. -/
theorem num_later (n : ℕ) (hb : n < cfg0.N) (h0 : ¬n % 32 = 0) (acc : Vec Ideal S128x32 .f32) :
    Cert.KernelIdeal.Value.scAt0_0 m c n hb acc
      = k0_pay1 (F := Ideal) (actTile m c (⟨n, hb⟩ : Fin cfg0.N)) (iblk m c 6 (⟨n, hb⟩ : Fin cfg0.N)) acc := by
  unfold Cert.KernelIdeal.Value.scAt0_0
  rw [dif_neg h0]
  exact tileB_num (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc _

theorem den_first (n : ℕ) (hb : n < cfg0.N) (h0 : n % 32 = 0) (acc : Vec Ideal S128x1 .f32) :
    Cert.KernelIdeal.Value.scAt0_1 m c n hb acc = k0_pay2 (F := Ideal) (actTile m c (⟨n, hb⟩ : Fin cfg0.N)) (k0_pay5 (F := Ideal)) := by
  unfold Cert.KernelIdeal.Value.scAt0_1
  rw [dif_pos h0]
  exact tileA_den (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))

theorem den_later (n : ℕ) (hb : n < cfg0.N) (h0 : ¬n % 32 = 0) (acc : Vec Ideal S128x1 .f32) :
    Cert.KernelIdeal.Value.scAt0_1 m c n hb acc = k0_pay2 (F := Ideal) (actTile m c (⟨n, hb⟩ : Fin cfg0.N)) acc := by
  unfold Cert.KernelIdeal.Value.scAt0_1
  rw [dif_neg h0]
  exact tileB_den (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) scM0_0 (Memref.isWhole_whole _) scM0_1 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) _ acc

/-! ## The folds -/

/-- What tile n adds to the numerator at (p, k): the activations tile times the targets tile. -/
def numAdd (n : ℕ) (i : S128x32.Idx) : EReal :=
  if h : n < cfg0.N then
    ∑ r : Fin 128, actTile m c ⟨n, h⟩ (ix2 (⟨(i 0).val, (i 0).isLt⟩ : Fin 128) r)
      * (iblk m c 6 ⟨n, h⟩ : Vec Ideal S128x32 .f32) (ix2 r (⟨(i 1).val, (i 1).isLt⟩ : Fin 32))
  else 0

/-- What tile n adds to the normaliser column at (p, 0): the row sum of the activations tile. -/
def denAdd (n : ℕ) (i : S128x1.Idx) : EReal :=
  if h : n < cfg0.N then ∑ r : Fin 128, actTile m c ⟨n, h⟩ (ix2 (⟨(i 0).val, (i 0).isLt⟩ : Fin 128) r) else 0

/-- The numerator after point t: zero plus the contributions of the row's tiles up to t's. -/
theorem num_fold (t : Fin cfg0.N) (i : S128x32.Idx) :
    (outsAt0 m c t.val t.isLt).2.2.2.1 i
      = zeroC + ∑ s ∈ Finset.range (t.val % 32 + 1), numAdd m c (32 * (t.val / 32) + s) i := by
  rw [Cert.KernelIdeal.Value.soutsAt0_0_eq m c t]
  refine Pipeline.accAt_add_apply _ _ (fun _ => (zeroC : EReal)) (numAdd m c) (32 * (t.val / 32)) 31 ?_ ?_ (t.val % 32)
    (by omega) _ i
  · intro h i
    obtain ⟨p, k, rfl⟩ : ∃ (p : Fin 128) (k : Fin 32), i = ix2 p k := ⟨i 0, i 1, eq_ix2 i⟩
    rw [num_first m c _ h (Nat.mul_mod_right 32 _)]
    refine (pay1_apply _ _ _ p k).trans ?_
    rw [pay4_apply]
    unfold numAdd
    rw [dif_pos h]
  · intro n h acc i hlo hhi
    obtain ⟨p, k, rfl⟩ : ∃ (p : Fin 128) (k : Fin 32), i = ix2 p k := ⟨i 0, i 1, eq_ix2 i⟩
    rw [num_later m c n h (by omega)]
    refine (pay1_apply _ _ _ p k).trans ?_
    unfold numAdd
    rw [dif_pos h]

/-- The normaliser column after point t. -/
theorem den_fold (t : Fin cfg0.N) (i : S128x1.Idx) :
    (outsAt0 m c t.val t.isLt).2.2.2.2 i
      = zeroC + ∑ s ∈ Finset.range (t.val % 32 + 1), denAdd m c (32 * (t.val / 32) + s) i := by
  rw [Cert.KernelIdeal.Value.soutsAt0_1_eq m c t]
  refine Pipeline.accAt_add_apply _ _ (fun _ => (zeroC : EReal)) (denAdd m c) (32 * (t.val / 32)) 31 ?_ ?_ (t.val % 32)
    (by omega) _ i
  · intro h i
    obtain ⟨p, u, rfl⟩ : ∃ (p : Fin 128) (u : Fin 1), i = ix2 p u := ⟨i 0, i 1, eq_ix2 i⟩
    obtain rfl : u = 0 := Subsingleton.elim _ _
    rw [den_first m c _ h (Nat.mul_mod_right 32 _)]
    refine (pay2_apply _ _ p).trans ?_
    rw [pay5_apply]
    unfold denAdd
    rw [dif_pos h]
  · intro n h acc i hlo hhi
    obtain ⟨p, u, rfl⟩ : ∃ (p : Fin 128) (u : Fin 1), i = ix2 p u := ⟨i 0, i 1, eq_ix2 i⟩
    obtain rfl : u = 0 := Subsingleton.elim _ _
    rw [den_later m c n h (by omega)]
    refine (pay2_apply _ _ p).trans ?_
    unfold denAdd
    rw [dif_pos h]

/-! ## The output tile -/

/-- At a tile that is not the first of its row the body leaves, in the output tile, the numerator it has just
    accumulated over (the normaliser column it has just accumulated, plus eps). -/
theorem out_later (t : Fin cfg0.N) (h0 : ¬t.val % 32 = 0) :
    (outsAt0 m c t.val t.isLt).1
      = k0_pay3 (F := Ideal) (outsAt0 m c t.val t.isLt).2.2.2.1 (outsAt0 m c t.val t.isLt).2.2.2.2 := by
  rw [outsAt0_B m c t h0]
  dsimp only
  exact (tileB_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) _ _).trans
    (congrArg₂ (k0_pay3 (F := Ideal))
      (tileB_num (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) _ _).symm
      (tileB_den (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) _ _).symm)

end Cert.KernelFolds

end
-- ==== Proof.RunSums.lean ====
/-
  The arithmetic of one run of 32 consecutive grid points, the points  32 * (t / 32) + s  for s = 0 .. 31: they share
  the query tile of t and walk through the 32 tiles of cases.  And the aggregation read off its two sums accumulated
  over such a run, each from zero.
-/
import proofs.«125842_j19404662243695_2_alg».proof.Proof.Spec
import proofs.«125842_j19404662243695_2_alg».proof.Proof.Laws
import proofs.«125842_j19404662243695_2_alg».proof.Proof.Blocks

noncomputable section

namespace Cert.KernelBlocks

open Cert.KernelIdeal Cert.KernelIdeal.Gen Idealize.ShloMosaic

/-- Point s of the run of t is one of the 64 points. -/
theorem run_lt (t : Fin cfg0.N) (s : ℕ) (hs : s < 32) : 32 * (t.val / 32) + s < cfg0.N := by
  have hN : cfg0.N = 64 := N_0
  have := t.isLt
  omega

/-- Every point of the run of t has the query tile of t:  (32 * (t / 32) + s) / 32 = t / 32  for s < 32. -/
theorem qrow_run (t : Fin cfg0.N) (s : ℕ) (hs : s < 32) (h : 32 * (t.val / 32) + s < cfg0.N) (p : Fin 128) :
    qrow ⟨32 * (t.val / 32) + s, h⟩ p = qrow t p := by
  apply Fin.ext
  show 128 * ((32 * (t.val / 32) + s) / 32) + p.val = 128 * (t.val / 32) + p.val
  have e : (32 * (t.val / 32) + s) / 32 = t.val / 32 := by omega
  rw [e]

/-- Point s of a run has the s-th tile of cases:  (32 * (t / 32) + s) % 32 = s  for s < 32. -/
theorem crow_run (t : Fin cfg0.N) (s : ℕ) (hs : s < 32) (h : 32 * (t.val / 32) + s < cfg0.N) (r : Fin 128) :
    crow ⟨32 * (t.val / 32) + s, h⟩ r = Cert.CaseSpec.caseOf ⟨s, hs⟩ r := by
  apply Fin.ext
  show 128 * ((32 * (t.val / 32) + s) % 32) + r.val = 128 * s + r.val
  have e : (32 * (t.val / 32) + s) % 32 = s := by omega
  rw [e]

end Cert.KernelBlocks

namespace Cert.CaseSpec

open Idealize.ShloMosaic

/-- The aggregation from its two sums accumulated over the 32 tiles, each from zero. -/
theorem yhat_of_runs {t : Fin 4096 → Fin 32 → EReal} {a : Fin 256 → Fin 4096 → EReal}
    (ha : ∀ b n, ∃ r : ℝ, a b n = (r : EReal) ∧ 0 < r) (ht : Real2 t) (b : Fin 256) (k : Fin 32)
    (num den : EReal) (Fn Fd : ℕ → EReal)
    (hnum : num = zeroC + ∑ s ∈ Finset.range 32, Fn s)
    (hden : den = zeroC + ∑ s ∈ Finset.range 32, Fd s)
    (hFn : ∀ (s : ℕ) (hs : s < 32), Fn s = ∑ r : Fin 128, a b (caseOf ⟨s, hs⟩ r) * t (caseOf ⟨s, hs⟩ r) k)
    (hFd : ∀ (s : ℕ) (hs : s < 32), Fd s = ∑ r : Fin 128, a b (caseOf ⟨s, hs⟩ r)) :
    Ideal.div num (den + epsC) = yhat t a b k := by
  subst hnum hden
  -- the sums over s < 32 as sums over the 32 tiles
  have en : ∑ s ∈ Finset.range 32, Fn s = ∑ j : Fin 32, ∑ r : Fin 128, a b (caseOf j r) * t (caseOf j r) k := by
    rw [Finset.sum_range]
    exact Finset.sum_congr rfl fun j _ => hFn j.val j.isLt
  have ed : ∑ s ∈ Finset.range 32, Fd s = ∑ j : Fin 32, ∑ r : Fin 128, a b (caseOf j r) := by
    rw [Finset.sum_range]
    exact Finset.sum_congr rfl fun j _ => hFd j.val j.isLt
  rw [en, ed]
  exact yhatK_eq_yhat ha ht b k

end Cert.CaseSpec

end
-- ==== Proof.Final7.lean ====
/-
  The aggregated output array ends holding the specification's aggregation.

  Its block of a query tile is written back once, after the last of the row's 32 case tiles. By then the two
  accumulators hold the sums over all 32 tiles, so the output tile is (sum of act * target) / (sum of act + eps),
  which for real positive activations and real targets is the sum of (act / (sum of act + eps)) * target.
-/
import proofs.«125842_j19404662243695_2_alg».proof.Proof.Gen.KernelIdeal.Value
import proofs.«125842_j19404662243695_2_alg».proof.Proof.Folds
import proofs.«125842_j19404662243695_2_alg».proof.Proof.RunSums
import proofs.«125842_j19404662243695_2_alg».proof.Proof.Laws
import Idealize.ShloMosaic.Lib.Pipeline.Value

noncomputable section

namespace Cert.KernelFinal

open Cert.KernelIdeal Cert.KernelIdeal.Gen Cert.CaseSpec Cert.KernelBlocks Cert.KernelInputs Cert.KernelFolds Cert.KernelPay
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-- The specification's activations of real inputs are positive reals. -/
theorem A_pos (hfin : FiniteArgs m c) (b : Fin 256) (n : Fin 4096) : ∃ r : ℝ, A m c b n = (r : EReal) ∧ 0 < r :=
  act_pos hfin.1 hfin.2.1 hfin.2.2.2.1 hfin.2.2.2.2.1 hfin.2.2.2.2.2 b n

/-- What a writing-back point writes to the output array is its block of the specification's aggregation. -/
theorem flushed7_eq (hfin : FiniteArgs m c) (t : Fin cfg0.N) (hf : (cfg0.win 7).flush t = true) :
    (dats m 0 c).flushed 7 t = ((cfg0.win 7).blk t).view.read (Elt Ideal)
      (yhatArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have h31 : t.val % 32 = 31 := (flush0_7 t).mp hf
  rw [Cert.KernelIdeal.Value.flushed7 m c t]
  funext y
  obtain ⟨p, k, rfl⟩ : ∃ (p : Fin 128) (k : Fin 32), y = ix2 p k := ⟨y 0, y 1, eq_ix2 y⟩
  show (outsAt0 m c t.val t.isLt).1 (ix2 p k) = _
  rw [out_later m c t (by omega), read7]
  refine (pay3_apply _ _ p k).trans ?_
  show _ = yhat (mat (m ((c : Thread nD τ).loc main_arg2))) (A m c) (qrow t p) k
  refine yhat_of_runs (A_pos m c hfin) hfin.2.2.1 (qrow t p) k _ _
    (fun s => numAdd m c (32 * (t.val / 32) + s) (ix2 p k)) (fun s => denAdd m c (32 * (t.val / 32) + s) (ix2 p (0 : Fin 1)))
    ((num_fold m c t (ix2 p k)).trans (by rw [h31])) ((den_fold m c t (ix2 p (0 : Fin 1))).trans (by rw [h31])) ?_ ?_
  · intro s hs
    unfold numAdd
    rw [dif_pos (run_lt t s hs)]
    refine Finset.sum_congr rfl fun r _ => ?_
    show actTile m c ⟨32 * (t.val / 32) + s, run_lt t s hs⟩ (ix2 p r)
        * (iblk m c 6 ⟨32 * (t.val / 32) + s, run_lt t s hs⟩ : Vec Ideal S128x32 .f32) (ix2 r k) = _
    rw [actTile_apply m c hfin, in6, qrow_run t s hs, crow_run t s hs]
  · intro s hs
    unfold denAdd
    rw [dif_pos (run_lt t s hs)]
    refine Finset.sum_congr rfl fun r _ => ?_
    show actTile m c ⟨32 * (t.val / 32) + s, run_lt t s hs⟩ (ix2 p r) = _
    rw [actTile_apply m c hfin, qrow_run t s hs, crow_run t s hs]

/-- So the output array ends holding the specification's aggregation. -/
theorem final7 (hfin : FiniteArgs m c) :
    (dats m 0 c).arrAt 7 cfg0.N = yhatArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 7 _ (fun t hf => flushed7_eq m c hfin t hf) cover7

end Cert.KernelFinal

end
-- ==== Proof.Final89.lean ====
/-
  The activations array and the delta array after the run.

  Every grid point writes back one block of each of the two arrays: the tile the body computed there.  That tile is
  the specification's array read through the point's block — the tile's entry (p, r) is the entry at query row
  128 (t / 32) + p and case row 128 (t mod 32) + r —, and the blocks of the 2 x 32 points tile each array.  So each
  array ends holding the specification's array.
-/
import proofs.«125842_j19404662243695_2_alg».proof.Proof.Gen.KernelIdeal.Value
import proofs.«125842_j19404662243695_2_alg».proof.Proof.Pieces
import proofs.«125842_j19404662243695_2_alg».proof.Proof.TileInputs
import proofs.«125842_j19404662243695_2_alg».proof.Proof.Blocks
import Idealize.ShloMosaic.Lib.Pipeline.Value

noncomputable section

namespace Cert.KernelFinal

open Cert.KernelIdeal Cert.KernelIdeal.Gen Cert.CaseSpec Cert.KernelBlocks Cert.KernelInputs Cert.KernelPieces
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-- What point `t` writes back to the delta array is the specification's delta array read through the point's
    block: the body's delta tile, whichever of the body's two cases runs at the point. -/
theorem flushed9_eq (t : Fin cfg0.N) :
    (dats m 0 c).flushed 9 t
      = ((cfg0.win 9).blk t).view.read (Elt Ideal) (deltaArr (m ((c : Thread nD τ).loc main_arg0)) (m ((c : Thread nD τ).loc main_arg1)) (m ((c : Thread nD τ).loc main_arg3))) := by
  have key : (cfg0.win 9).cut (grid0.coords t)
      (k0_pay6 (F := Ideal) (iblk m c 0 t) (iblk m c 1 t) (iblk m c 2 t))
        = ((cfg0.win 9).blk t).view.read (Elt Ideal) (deltaArr (m ((c : Thread nD τ).loc main_arg0)) (m ((c : Thread nD τ).loc main_arg1)) (m ((c : Thread nD τ).loc main_arg3))) := by
    funext y
    obtain ⟨p, r, d, rfl⟩ : ∃ (p r d : Fin 128), y = ix3 p r d := ⟨y 0, y 1, y 2, eq_ix3 y⟩
    show k0_pay6 (F := Ideal) (iblk m c 0 t) (iblk m c 1 t) (iblk m c 2 t) (ix3 p r d) = _
    rw [read9, deltaTile_apply m c t p r d]
    rfl
  by_cases h0 : t.val % 32 = 0
  · refine (Cert.KernelIdeal.Value.flushed9_A m c t h0).trans ?_
    refine (congrArg ((cfg0.win 9).cut (grid0.coords t)) (tileA_delta (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t))).trans ?_
    exact key
  · refine (Cert.KernelIdeal.Value.flushed9_B m c t h0).trans ?_
    refine (congrArg ((cfg0.win 9).cut (grid0.coords t)) (tileB_delta (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) _ _)).trans ?_
    exact key

/-- What point `t` writes back to the activations array is the specification's activations array read through the
    point's block: the body's activations tile, whichever of the body's two cases runs at the point; the tile is the
    specification's activation when every input entry is a real number. -/
theorem flushed8_eq (hfin : FiniteArgs m c) (t : Fin cfg0.N) :
    (dats m 0 c).flushed 8 t
      = ((cfg0.win 8).blk t).view.read (Elt Ideal) (actArr (m ((c : Thread nD τ).loc main_arg0)) (m ((c : Thread nD τ).loc main_arg1)) (m ((c : Thread nD τ).loc main_arg3)) (m ((c : Thread nD τ).loc main_arg4)) (m ((c : Thread nD τ).loc main_arg5))) := by
  have key : (cfg0.win 8).cut (grid0.coords t)
      (k0_pay7 (F := Ideal) (iblk m c 0 t) (iblk m c 3 t) (iblk m c 4 t) (iblk m c 5 t))
        = ((cfg0.win 8).blk t).view.read (Elt Ideal) (actArr (m ((c : Thread nD τ).loc main_arg0)) (m ((c : Thread nD τ).loc main_arg1)) (m ((c : Thread nD τ).loc main_arg3)) (m ((c : Thread nD τ).loc main_arg4)) (m ((c : Thread nD τ).loc main_arg5))) := by
    funext y
    obtain ⟨p, r, rfl⟩ : ∃ (p r : Fin 128), y = ix2 p r := ⟨y 0, y 1, eq_ix2 y⟩
    show actTile m c t (ix2 p r) = _
    rw [read8, actTile_apply m c hfin t p r]
    rfl
  by_cases h0 : t.val % 32 = 0
  · refine (Cert.KernelIdeal.Value.flushed8_A m c t h0).trans ?_
    refine (congrArg ((cfg0.win 8).cut (grid0.coords t)) (tileA_act (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t))).trans ?_
    exact key
  · refine (Cert.KernelIdeal.Value.flushed8_B m c t h0).trans ?_
    refine (congrArg ((cfg0.win 8).cut (grid0.coords t)) (tileB_act (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) _ _)).trans ?_
    exact key

/-- The blocks of the 64 points tile the delta array, so it ends holding the specification's delta array. -/
theorem final9 :
    (dats m 0 c).arrAt 9 cfg0.N = deltaArr (m ((c : Thread nD τ).loc main_arg0)) (m ((c : Thread nD τ).loc main_arg1)) (m ((c : Thread nD τ).loc main_arg3)) :=
  (dats m 0 c).arrAt_eq_of_cover 9 _ (fun t _ => flushed9_eq m c t) cover9

/-- The blocks of the 64 points tile the activations array, so it ends holding the specification's activations
    array. -/
theorem final8 (hfin : FiniteArgs m c) :
    (dats m 0 c).arrAt 8 cfg0.N = actArr (m ((c : Thread nD τ).loc main_arg0)) (m ((c : Thread nD τ).loc main_arg1)) (m ((c : Thread nD τ).loc main_arg3)) (m ((c : Thread nD τ).loc main_arg4)) (m ((c : Thread nD τ).loc main_arg5)) :=
  (dats m 0 c).arrAt_eq_of_cover 8 _ (fun t _ => flushed8_eq m c hfin t) cover8

end Cert.KernelFinal

end
-- ==== Proof.KernelRun.lean ====
/-
  The idealized kernel's run, read: each of its three result arrays ends holding the specification's array of the
  six argument arrays as launched, and the arguments end unchanged — under the precondition that every input entry
  is a real number. The run itself is the frame run with each output array named; the three arrays are then read
  block by block: the delta and activation blocks are written once each, the aggregation's block after the last case
  tile of its row.
-/
import proofs.«125842_j19404662243695_2_alg».proof.Defs
import proofs.«125842_j19404662243695_2_alg».proof.Proof.Spec
import proofs.«125842_j19404662243695_2_alg».proof.Proof.Gen.KernelIdeal.Value
import proofs.«125842_j19404662243695_2_alg».proof.Proof.Gen.Pre_finite_inputs
import proofs.«125842_j19404662243695_2_alg».proof.Proof.Finite
import proofs.«125842_j19404662243695_2_alg».proof.Proof.Final7
import proofs.«125842_j19404662243695_2_alg».proof.Proof.Final89

noncomputable section

namespace Cert.KernelRun

open Cert.KernelIdeal Cert.KernelIdeal.Gen Cert.CaseSpec
open Idealize.ShloMosaic Idealize.ShloMosaic.TcCoe Idealize.SL.Sem
open Cert.KernelInputs Cert.KernelFinal

theorem run [hK : Cert.KernelIdeal.Facts] [hP : Cert.Pre_finite_inputs.Facts]
    (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ fun r => ∀ c : Dev nD,
      r.2.mem ((c : Thread nD τ).loc main_v10_0) = yhatArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v10_1) = actArr (m ((c : Thread nD τ).loc main_arg0)) (m ((c : Thread nD τ).loc main_arg1)) (m ((c : Thread nD τ).loc main_arg3)) (m ((c : Thread nD τ).loc main_arg4)) (m ((c : Thread nD τ).loc main_arg5))
      ∧ r.2.mem ((c : Thread nD τ).loc main_v10_2) = deltaArr (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run (defs (F := Ideal)) _ _).mono (fun r h c =>
      have hfin : FiniteArgs m c := Cert.FiniteInputs.of_pre m hpre c
      ⟨(h c).1.trans (final7 m c hfin), (h c).2.1.trans (final8 m c hfin), (h c).2.2.1.trans (final9 m c), (h c).2.2.2⟩)
    (Cert.KernelIdeal.Value.run_blocks m ρ)

end Cert.KernelRun

end
-- ==== Proof.lean ====
/-
  The certificate's claim, assembled from its five statements.

  1. The kernel as printed runs to completion without fault and leaves its six argument arrays as launched.
  2. The same of the kernel read over the extended reals.
  3. The same of the reference read over the extended reals: its run ends with its three results and the six
     arguments unchanged, and the statement keeps the argument part.
  4. The idealized kernel is the kernel's own text read over the extended reals (no operation was rewritten), so
     there is nothing to preserve.
  5. Over the extended reals, from memories that agree on the six arguments, every entry of which is a real
     number, both programs run and end with the same three result arrays and unchanged arguments. The common
     values are the specification's arrays (Proof/Spec.lean) of the kernel's launch arrays q, c, t, fw, dw, beta:

       delta[b,n,d] = (q[b,d] - c[n,d])^2 * softplus fw[n,d]
       act[b,n]     = 1 / (1 + exp (-(sum_d delta[b,n,d] * (-|dw[n,d]|) + beta[n])))
       yhat[b,k]    = sum_n (act[b,n] / (sum_n' act[b,n'] + eps)) * t[n,k]

     The kernel's half is its run read tile by tile (Proof/KernelRun.lean); the reference's half is its run, whose
     three result terms are these arrays of its own arguments (Proof/RefSide.lean), carried along the agreement of
     the arguments.
-/
import proofs.«125842_j19404662243695_2_alg».proof.Defs
import proofs.«125842_j19404662243695_2_alg».proof.Proof.Gen.Kernel
import proofs.«125842_j19404662243695_2_alg».proof.Proof.Gen.Kernel.Skeleton
import proofs.«125842_j19404662243695_2_alg».proof.Proof.Gen.Kernel.Launch
import proofs.«125842_j19404662243695_2_alg».proof.Proof.Gen.Kernel.Points
import proofs.«125842_j19404662243695_2_alg».proof.Proof.Gen.Kernel.Frame
import proofs.«125842_j19404662243695_2_alg».proof.Proof.Gen.KernelIdeal
import proofs.«125842_j19404662243695_2_alg».proof.Proof.Gen.KernelIdeal.Skeleton
import proofs.«125842_j19404662243695_2_alg».proof.Proof.Gen.KernelIdeal.Launch
import proofs.«125842_j19404662243695_2_alg».proof.Proof.Gen.KernelIdeal.Points
import proofs.«125842_j19404662243695_2_alg».proof.Proof.Gen.KernelIdeal.Frame
import proofs.«125842_j19404662243695_2_alg».proof.Proof.Gen.ReferenceIdeal
import proofs.«125842_j19404662243695_2_alg».proof.Proof.Gen.KernelIdeal.Value
import proofs.«125842_j19404662243695_2_alg».proof.Proof.Gen.ReferenceIdeal.Run
import proofs.«125842_j19404662243695_2_alg».proof.Proof.Gen.ReferenceIdeal.Read
import proofs.«125842_j19404662243695_2_alg».proof.Proof.Gen.Pre_finite_inputs
import proofs.«125842_j19404662243695_2_alg».proof.Proof.RefSide
import proofs.«125842_j19404662243695_2_alg».proof.Proof.KernelRun
import Idealize.ShloMosaic.Adequacy
import Idealize.ShloMosaic.Init

noncomputable section

namespace Cert.Proof.Claims

open Idealize.ShloMosaic Idealize.SL.Sem

/-- The kernel as printed runs and leaves its arguments unchanged. -/
theorem frame_k : Cert.frame_Kernel := fun m ρ _ => Cert.Kernel.Gen.frame m ρ

/-- The kernel over the extended reals runs and leaves its arguments unchanged. -/
theorem frame_ki : Cert.frame_KernelIdeal := fun m ρ _ => Cert.KernelIdeal.Gen.frame m ρ

/-- The reference over the extended reals runs and leaves its arguments unchanged: the last six of the nine
    equations its run ends with. -/
theorem frame_ri : Cert.frame_ReferenceIdeal := fun m ρ _ =>
  (θ_run Cert.ReferenceIdeal.defs _ _).mono (fun _ h c => (h c).2.2.2)
    (Cert.ReferenceIdeal.Value.run (F := Ideal) m ρ)

/-- No operation of the kernel was rewritten for the reading over the extended reals. -/
theorem preserves : Cert.preserves_Kernel_KernelIdeal := trivial

/-- Both programs end holding the specification's three arrays of the kernel's launch arrays: the kernel by its run,
    the reference by its run, its three result terms being those arrays of its own arguments, which agree with the
    kernel's. -/
theorem algebraic : Cert.algebraic_KernelIdeal_ReferenceIdeal := by
  intro m ρ m' ρ' hpre hagree
  refine ⟨_, _, _, Cert.KernelRun.run m ρ hpre, ?_⟩
  refine (θ_run Cert.ReferenceIdeal.defs _ _).mono (fun _ h c => ?_)
    (Cert.ReferenceIdeal.Value.run (F := Ideal) m' ρ')
  obtain ⟨h0, h1, h2, hargs⟩ := h c
  obtain ⟨a0, a1, a2, a3, a4, a5⟩ := hagree c
  refine ⟨?_, ?_, ?_, hargs⟩
  · refine h0.trans ((Cert.ReferenceIdeal.Read.val_main_v31_eq m' c).trans
      ((Cert.RefSide.ref_yhat _ _ _ _ _ _).trans ?_))
    rw [a0, a1, a2, a3, a4, a5]
  · refine h1.trans ((Cert.ReferenceIdeal.Read.val_main_v24_eq _ _ _ _ _).trans
      ((Cert.RefSide.ref_act _ _ _ _ _).trans ?_))
    rw [a0, a1, a3, a4, a5]
  · refine h2.trans ((Cert.ReferenceIdeal.Read.val_main_v9_eq _ _ _).trans
      ((Cert.RefSide.ref_delta _ _ _).trans ?_))
    rw [a0, a1, a3]

end Cert.Proof.Claims

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
